-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S384x128 .f32) (main_arg6 : FVec F S384 .f32) (main_arg7 : FVec F S384 .f32) (main_arg8 : FVec F S1x128 .f32) (main_arg9 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x600000 32) (main_arg2 : FVec F S600000 .f32) (main_arg3 : FVec F S128x128 .f32) (main_arg4 : FVec F S384x128 .f32) (main_arg5 : FVec F S384x128 .f32) (main_arg6 : FVec F S384 .f32) (main_arg7 : FVec F S384 .f32) (main_arg8 : FVec F S1x128 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S100000 : Shape := ⟨1, ![100000]⟩
abbrev S1x600000 : Shape := ⟨2, ![1, 600000]⟩
abbrev S700000 : Shape := ⟨1, ![700000]⟩
abbrev S700000x1 : Shape := ⟨2, ![700000, 1]⟩
abbrev S700000x128 : Shape := ⟨2, ![700000, 128]⟩
abbrev S1x1 : Shape := ⟨2, ![1, 1]⟩
abbrev S100000x1 : Shape := ⟨2, ![100000, 1]⟩
abbrev S5000x128 : Shape := ⟨2, ![5000, 128]⟩
abbrev S5000x1 : Shape := ⟨2, ![5000, 1]⟩
abbrev S128x1 : Shape := ⟨2, ![128, 1]⟩

abbrev nBuf : Space → Nat
  | .hbm => 116
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S100000, .i32⟩
  | .hbm, ⟨54, _⟩ => ⟨S1x600000, .i32⟩
  | .hbm, ⟨55, _⟩ => ⟨S600000, .i32⟩
  | .hbm, ⟨56, _⟩ => ⟨S700000, .i32⟩
  | .hbm, ⟨57, _⟩ => ⟨S1x600000, .i32⟩
  | .hbm, ⟨58, _⟩ => ⟨S600000, .i32⟩
  | .hbm, ⟨59, _⟩ => ⟨S700000, .i32⟩
  | .hbm, ⟨60, _⟩ => ⟨S_, .f32⟩
  | .hbm, ⟨61, _⟩ => ⟨S100000, .f32⟩
  | .hbm, ⟨62, _⟩ => ⟨S700000, .f32⟩
  | .hbm, ⟨63, _⟩ => ⟨S_, .f32⟩
  | .hbm, ⟨64, _⟩ => ⟨S100000, .f32⟩
  | .hbm, ⟨65, _⟩ => ⟨S700000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .i1⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S700000, .i32⟩
  | .hbm, ⟨80, _⟩ => ⟨S700000, .i1⟩
  | .hbm, ⟨81, _⟩ => ⟨S_, .i32⟩
  | .hbm, ⟨82, _⟩ => ⟨S700000, .i32⟩
  | .hbm, ⟨83, _⟩ => ⟨S700000, .i32⟩
  | .hbm, ⟨84, _⟩ => ⟨S700000, .i32⟩
  | .hbm, ⟨85, _⟩ => ⟨S700000x1, .i32⟩
  | .hbm, ⟨86, _⟩ => ⟨S700000, .f32⟩
  | .hbm, ⟨87, _⟩ => ⟨S700000, .f32⟩
  | .hbm, ⟨88, _⟩ => ⟨S_, .i32⟩
  | .hbm, ⟨89, _⟩ => ⟨S700000, .i32⟩
  | .hbm, ⟨90, _⟩ => ⟨S700000, .i1⟩
  | .hbm, ⟨91, _⟩ => ⟨S_, .i32⟩
  | .hbm, ⟨92, _⟩ => ⟨S700000, .i32⟩
  | .hbm, ⟨93, _⟩ => ⟨S700000, .i32⟩
  | .hbm, ⟨94, _⟩ => ⟨S700000, .i32⟩
  | .hbm, ⟨95, _⟩ => ⟨S700000x1, .i32⟩
  | .hbm, ⟨96, _⟩ => ⟨S700000, .f32⟩
  | .hbm, ⟨97, _⟩ => ⟨S700000, .f32⟩
  | .hbm, ⟨98, _⟩ => ⟨S700000x1, .f32⟩
  | .hbm, ⟨99, _⟩ => ⟨S_, .i32⟩
  | .hbm, ⟨100, _⟩ => ⟨S700000, .i32⟩
  | .hbm, ⟨101, _⟩ => ⟨S700000, .i1⟩
  | .hbm, ⟨102, _⟩ => ⟨S_, .i32⟩
  | .hbm, ⟨103, _⟩ => ⟨S700000, .i32⟩
  | .hbm, ⟨104, _⟩ => ⟨S700000, .i32⟩
  | .hbm, ⟨105, _⟩ => ⟨S700000, .i32⟩
  | .hbm, ⟨106, _⟩ => ⟨S700000x1, .i32⟩
  | .hbm, ⟨107, _⟩ => ⟨S700000x128, .f32⟩
  | .hbm, ⟨108, _⟩ => ⟨S700000x128, .f32⟩
  | .hbm, ⟨109, _⟩ => ⟨S700000x128, .f32⟩
  | .hbm, ⟨110, _⟩ => ⟨S_, .f32⟩
  | .hbm, ⟨111, _⟩ => ⟨S100000x128, .f32⟩
  | .hbm, ⟨112, _⟩ => ⟨S700000x1, .i32⟩
  | .hbm, ⟨113, _⟩ => ⟨S100000x128, .f32⟩
  | .hbm, ⟨114, _⟩ => ⟨S1x1, .f32⟩
  | .hbm, ⟨115, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x1, .f32⟩
  | .local _ .vmem, ⟨5, _⟩ => ⟨S5000x1, .f32⟩
  | .local _ .vmem, ⟨6, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_call0_v0 : Ref sig .tc := ⟨.hbm, 75, rfl⟩
abbrev main_call0_v1 : Ref sig .tc := ⟨.hbm, 76, rfl⟩
abbrev main_v55 : Ref sig .tc := ⟨.hbm, 77, rfl⟩
abbrev main_c : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_14 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S128x128_S128x384_S128x384_1_0_0_1_n_n_wf : DotDims.WF S128x128 S128x384 S128x384 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v84) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v85) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v86) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S100000 : Shape := ⟨1, ![100000]⟩
abbrev S1x600000 : Shape := ⟨2, ![1, 600000]⟩
abbrev S700000 : Shape := ⟨1, ![700000]⟩
abbrev S700000x1 : Shape := ⟨2, ![700000, 1]⟩
abbrev S700000x128 : Shape := ⟨2, ![700000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S100000, .i32⟩
  | .hbm, ⟨54, _⟩ => ⟨S1x600000, .i32⟩
  | .hbm, ⟨55, _⟩ => ⟨S600000, .i32⟩
  | .hbm, ⟨56, _⟩ => ⟨S700000, .i32⟩
  | .hbm, ⟨57, _⟩ => ⟨S1x600000, .i32⟩
  | .hbm, ⟨58, _⟩ => ⟨S600000, .i32⟩
  | .hbm, ⟨59, _⟩ => ⟨S700000, .i32⟩
  | .hbm, ⟨60, _⟩ => ⟨S_, .f32⟩
  | .hbm, ⟨61, _⟩ => ⟨S100000, .f32⟩
  | .hbm, ⟨62, _⟩ => ⟨S700000, .f32⟩
  | .hbm, ⟨63, _⟩ => ⟨S_, .f32⟩
  | .hbm, ⟨64, _⟩ => ⟨S100000, .f32⟩
  | .hbm, ⟨65, _⟩ => ⟨S700000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .i1⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S700000, .i32⟩
  | .hbm, ⟨80, _⟩ => ⟨S700000, .i1⟩
  | .hbm, ⟨81, _⟩ => ⟨S_, .i32⟩
  | .hbm, ⟨82, _⟩ => ⟨S700000, .i32⟩
  | .hbm, ⟨83, _⟩ => ⟨S700000, .i32⟩
  | .hbm, ⟨84, _⟩ => ⟨S700000, .i32⟩
  | .hbm, ⟨85, _⟩ => ⟨S700000x1, .i32⟩
  | .hbm, ⟨86, _⟩ => ⟨S700000, .f32⟩
  | .hbm, ⟨87, _⟩ => ⟨S700000, .f32⟩
  | .hbm, ⟨88, _⟩ => ⟨S_, .i32⟩
  | .hbm, ⟨89, _⟩ => ⟨S700000, .i32⟩
  | .hbm, ⟨90, _⟩ => ⟨S700000, .i1⟩
  | .hbm, ⟨91, _⟩ => ⟨S_, .i32⟩
  | .hbm, ⟨92, _⟩ => ⟨S700000, .i32⟩
  | .hbm, ⟨93, _⟩ => ⟨S700000, .i32⟩
  | .hbm, ⟨94, _⟩ => ⟨S700000, .i32⟩
  | .hbm, ⟨95, _⟩ => ⟨S700000x1, .i32⟩
  | .hbm, ⟨96, _⟩ => ⟨S700000, .f32⟩
  | .hbm, ⟨97, _⟩ => ⟨S700000, .f32⟩
  | .hbm, ⟨98, _⟩ => ⟨S100000x128, .f32⟩
  | .hbm, ⟨99, _⟩ => ⟨S700000x1, .f32⟩
  | .hbm, ⟨100, _⟩ => ⟨S_, .i32⟩
  | .hbm, ⟨101, _⟩ => ⟨S700000, .i32⟩
  | .hbm, ⟨102, _⟩ => ⟨S700000, .i1⟩
  | .hbm, ⟨103, _⟩ => ⟨S_, .i32⟩
  | .hbm, ⟨104, _⟩ => ⟨S700000, .i32⟩
  | .hbm, ⟨105, _⟩ => ⟨S700000, .i32⟩
  | .hbm, ⟨106, _⟩ => ⟨S700000, .i32⟩
  | .hbm, ⟨107, _⟩ => ⟨S700000x1, .i32⟩
  | .hbm, ⟨108, _⟩ => ⟨S700000x128, .f32⟩
  | .hbm, ⟨109, _⟩ => ⟨S700000x128, .f32⟩
  | .hbm, ⟨110, _⟩ => ⟨S700000x128, .f32⟩
  | .hbm, ⟨111, _⟩ => ⟨S_, .f32⟩
  | .hbm, ⟨112, _⟩ => ⟨S100000x128, .f32⟩
  | .hbm, ⟨113, _⟩ => ⟨S700000x1, .i32⟩
  | .hbm, ⟨114, _⟩ => ⟨S100000x128, .f32⟩
  | .hbm, ⟨115, _⟩ => ⟨S_, .f32⟩
  | .hbm, ⟨116, _⟩ => ⟨S100000x128, .f32⟩
  | .hbm, ⟨117, _⟩ => ⟨S100000x128, .f32⟩
  | .hbm, ⟨118, _⟩ => ⟨S128x1, .f32⟩
  | .hbm, ⟨119, _⟩ => ⟨S100000x1, .f32⟩
  | .hbm, ⟨120, _⟩ => ⟨S1x1, .f32⟩
  | .hbm, ⟨121, _⟩ => ⟨S100000x1, .f32⟩
  | .hbm, ⟨122, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_call0_v0 : Ref sig .tc := ⟨.hbm, 75, rfl⟩
abbrev main_call0_v1 : Ref sig .tc := ⟨.hbm, 76, rfl⟩
abbrev main_v55 : Ref sig .tc := ⟨.hbm, 77, rfl⟩
abbrev main_c : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_call1_cst : Ref sig .tc := ⟨.hbm, 115, rfl⟩
abbrev main_call1_v0 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S128x128_S128x384_S128x384_1_0_0_1_n_n_wf : DotDims.WF S128x128 S128x384 S128x384 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x1_S100000x1_1_0_0_1_n_n_wf : DotDims.WF S100000x128 S128x1 S100000x1 [1] [0] [0] [1] [] []

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.LibRealArrays.lean ====
/-
  Arrays of extended reals whose entries are all real numbers.

  On the extended reals the distributive law and the exchange of a product with a sum fail at the
  infinities, so a law that needs them is applied only to arrays known to hold real numbers. This
  file says which array operations keep that property: an operation that re-lays entries
  (transpose, slice, broadcast, concatenate, gather) returns entries of its operands; a pointwise
  sum, difference, product, negation, maximum, exponential or hyperbolic tangent of real numbers is
  a real number; a quotient by a POSITIVE real and the reciprocal square root of a POSITIVE real are
  real numbers; a finite sum of real numbers is a real number, hence so is every entry of a matrix
  product and of an accumulating scatter of real arrays.
-/
import Idealize.ShloMosaic.PureOps.Ideal
import Idealize.ShloMosaic.PureOps.Ideal.Laws

noncomputable section

namespace RealArrays

open Idealize.ShloMosaic

/-! ## Real and positive extended reals -/

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- The maximum of a real number and a positive real number is a positive real number. -/
theorem IsPos.max_right {x y : EReal} (hx : IsReal x) (hy : IsPos y) : IsPos (max x y) := by
  rcases le_total x y with h | h
  · rw [max_eq_right h]; exact hy
  · rw [max_eq_left h]
    obtain ⟨a, rfl⟩ := hx; obtain ⟨b, hb, rfl⟩ := hy
    exact ⟨a, lt_of_lt_of_le hb (by exact_mod_cast h), rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

theorem IsPos.exp {x : EReal} (hx : IsReal x) : IsPos (Ideal.exp x) := by
  obtain ⟨a, rfl⟩ := hx; exact ⟨Real.exp a, Real.exp_pos a, Ideal.exp_coe a⟩

theorem IsReal.tanh {x : EReal} (hx : IsReal x) : IsReal (Ideal.tanh x) := by
  obtain ⟨a, rfl⟩ := hx; exact ⟨Real.tanh a, Ideal.tanh_coe a⟩

/-- A real number over a positive real number is a real number. -/
theorem IsReal.div_pos {x y : EReal} (hx : IsReal x) (hy : IsPos y) : IsReal (Ideal.div x y) := by
  obtain ⟨b, hb, rfl⟩ := hy
  rw [Ideal.div_coe (ne_of_gt hb)]
  exact hx.mul (isReal_coe _)

/-- The reciprocal square root of a positive real number is a real number. -/
theorem IsReal.rsqrt_pos {x : EReal} (hx : IsPos x) : IsReal (Ideal.rsqrt x) := by
  obtain ⟨a, ha, rfl⟩ := hx
  rw [Ideal.rsqrt_coe, if_neg (not_lt.2 ha.le), if_neg (ne_of_gt ha)]
  exact isReal_coe _

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s (fun _ => ?_) (fun a s ha ih h => ?_)
  · rw [Finset.sum_empty]; exact isReal_zero
  · rw [Finset.sum_insert ha]
    exact (h a (Finset.mem_insert_self a s)).add (ih fun i hi => h i (Finset.mem_insert_of_mem hi))

/-- The coercion of a finite sum of real numbers is the sum of the coercions. -/
theorem coe_sum {ι : Type*} (s : Finset ι) (f : ι → ℝ) :
    ((∑ i ∈ s, f i : ℝ) : EReal) = ∑ i ∈ s, (f i : EReal) := by
  classical
  refine Finset.induction_on s ?_ (fun a s ha ih => ?_)
  · rw [Finset.sum_empty, Finset.sum_empty]; exact EReal.coe_zero
  · rw [Finset.sum_insert ha, Finset.sum_insert ha, EReal.coe_add, ih]

/-! ## Arrays -/

variable {s t : Shape} {φ ψ : FTy}

/-- Every entry of the array is a real number. -/
def AllReal (v : s.Idx → EReal) : Prop := ∀ i, IsReal (v i)

/-- Every entry of the array is a positive real number. -/
def AllPos (v : s.Idx → EReal) : Prop := ∀ i, IsPos (v i)

theorem AllPos.allReal {v : s.Idx → EReal} (h : AllPos v) : AllReal v := fun i => (h i).isReal

/-! ### Pointwise operations at the ideal instance -/

theorem AllReal.addf {a b : FVec Ideal s φ} (ha : AllReal a) (hb : AllReal b) : AllReal (addf a b) :=
  fun i => (ha i).add (hb i)

theorem AllReal.subf {a b : FVec Ideal s φ} (ha : AllReal a) (hb : AllReal b) : AllReal (subf a b) :=
  fun i => (ha i).sub (hb i)

theorem AllReal.mulf {a b : FVec Ideal s φ} (ha : AllReal a) (hb : AllReal b) : AllReal (mulf a b) :=
  fun i => (ha i).mul (hb i)

theorem AllReal.maximumf {a b : FVec Ideal s φ} (ha : AllReal a) (hb : AllReal b) : AllReal (maximumf a b) :=
  fun i => (ha i).max (hb i)

theorem AllPos.maximumf_right {a b : FVec Ideal s φ} (ha : AllReal a) (hb : AllPos b) : AllPos (maximumf a b) :=
  fun i => IsPos.max_right (ha i) (hb i)

theorem AllPos.addf {a b : FVec Ideal s φ} (ha : AllPos a) (hb : AllPos b) : AllPos (addf a b) :=
  fun i => (ha i).add (hb i)

theorem AllReal.hostNegf {a : FVec Ideal s φ} (ha : AllReal a) : AllReal (Host.negf a) :=
  fun i => (ha i).neg

theorem AllPos.hostExp {a : FVec Ideal s φ} (ha : AllReal a) : AllPos (Host.exp a) :=
  fun i => IsPos.exp (ha i)

theorem AllReal.hostTanh {a : FVec Ideal s φ} (ha : AllReal a) : AllReal (Host.tanh a) :=
  fun i => (ha i).tanh

theorem AllReal.hostDivf {a b : FVec Ideal s φ} (ha : AllReal a) (hb : AllPos b) : AllReal (Host.divf a b) :=
  fun i => (ha i).div_pos (hb i)

theorem AllReal.hostRsqrt {a : FVec Ideal s φ} (ha : AllPos a) : AllReal (Host.rsqrt a) :=
  fun i => IsReal.rsqrt_pos (ha i)

/-- A selection between two real arrays is a real array, whatever the mask. -/
theorem AllReal.select {c : IVec s 1} {a b : s.Idx → EReal} (ha : AllReal a) (hb : AllReal b) :
    AllReal (select c a b) := fun i => by
  show IsReal (Scalar.select (c i) (a i) (b i))
  unfold Scalar.select
  split
  · exact ha i
  · exact hb i

/-! ### Operations that re-lay entries -/

theorem AllReal.transpose {x : s.Idx → EReal} (hx : AllReal x) (perm : List (Fin s.rank)) (h : s.Transposes perm t) :
    AllReal (transpose t perm x h) := fun _ => hx _

theorem AllReal.broadcastInDim {x : s.Idx → EReal} (hx : AllReal x) (dims : Fin s.rank → Fin t.rank)
    (h : s.BroadcastsInDim t dims) : AllReal (broadcastInDim t dims h x) := fun _ => hx _

theorem AllPos.broadcastInDim {x : s.Idx → EReal} (hx : AllPos x) (dims : Fin s.rank → Fin t.rank)
    (h : s.BroadcastsInDim t dims) : AllPos (broadcastInDim t dims h x) := fun _ => hx _

theorem AllReal.extractStridedSlice {x : s.Idx → EReal} (hx : AllReal x) (off : Fin s.rank → Nat) (h : s.Slices off t) :
    AllReal (extractStridedSlice t off x h) := fun _ => hx _

theorem AllReal.shapeCast {x : s.Idx → EReal} (hx : AllReal x) (h : s.ShapeCasts t) :
    AllReal (shapeCast t x h) := fun _ => hx _

/-- A gather reads entries of its operand, whatever the indices. -/
theorem AllReal.hostGather {si : Shape} {w : Nat} {x : s.Idx → EReal} (hx : AllReal x) (d : GatherDims s si t)
    (idx : IVec si w) : AllReal (Host.gather d x idx) := fun _ => hx _

/-- A concatenation of real arrays is a real array. -/
theorem AllReal.concatenate (a : Fin t.rank) (xs : List ((s : Shape) × (s.Idx → EReal)))
    (h : Shape.Concatenates (xs.map (·.1)) t a) (hx : ∀ p ∈ xs, AllReal p.2) : AllReal (concatenate t a xs h) := by
  intro j
  unfold Idealize.ShloMosaic.concatenate
  exact hx _ (List.getElem_mem _) _

/-! ### Sums: the host's matrix product and its accumulating scatter -/

/-- Every entry of the host's product of two real arrays is a finite sum of products of real numbers. -/
theorem AllReal.hostDotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- Every entry of an accumulating scatter of real updates onto a real array is that array's entry plus a
    finite sum of updates. -/
theorem AllReal.hostScatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (IsReal.sum _ _ fun j _ => hu j)

end RealArrays

end
-- ==== Proof.PreFinite.lean ====
/-
  The precondition, opened: every float argument array holds real numbers.

  The precondition is the conjunction, one per float argument, of `all (|x| < +∞)`. An extended real whose
  absolute value `max x (−x)` is below `+∞` is neither infinity, hence a real number; a reduction by `and` that
  gives 1 had a 1 at every index; and a chain of `and`s that gives 1 had 1 in every link. The law that joins the
  two programs needs this of the features, the edge weights, the old weight and the four recurrent parameters;
  the classifier's row and bias enter both programs the same way and are not opened.
-/
import proofs.«151306_j80504866996300_2_alg».proof.Pre_finite_inputs
import proofs.«151306_j80504866996300_2_alg».proof.Proof.LibRealArrays
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic RealArrays

instance : Subsingleton S_.Idx := ⟨fun a b => funext fun d => d.elim0⟩

/-- The pattern of `+∞` denotes `⊤`. -/
theorem ofBits_inf : Ideal.ofBits .f32 0x7F800000#32 = ⊤ := by simp [Ideal.ofBits, Ideal.ieee]

/-- An extended real whose absolute value is below `+∞` is a real number. -/
theorem isReal_of_abs_lt_inf (x : EReal)
    (h : Ideal.cmp .olt (max x (-x)) (Ideal.ofBits .f32 0x7F800000#32) = 1#1) : IsReal x := by
  rw [ofBits_inf] at h
  have h' : BitVec.ofBool (decide (max x (-x) < ⊤)) = 1#1 := h
  have hlt : max x (-x) < ⊤ := by
    by_contra hn
    rw [decide_eq_false hn] at h'
    exact absurd h' (by decide)
  induction x using EReal.rec with
  | bot => simp at hlt
  | top => simp at hlt
  | coe r => exact ⟨r, rfl⟩

/-- `all (|x| < +∞)` of an array makes it a real array. -/
theorem allReal_of_all {s : Shape} {axes : List (Fin s.rank)} (x : FVec Ideal s .f32) (hb : S_.BroadcastsInDim s ![])
    (red : s.ReducesTo axes S_) (hu : 0 < S_.numel)
    (e : Host.reduce IntOp.andi
        (cmpf .olt (Host.absf x) (broadcastInDim s ![] hb (constant (F := Ideal) S_ .f32 0x7F800000#32)))
        (constantI S_ 1 1#1) red hu ValueIdx.ix0 = 1#1) : AllReal x := fun i =>
  isReal_of_abs_lt_inf (x i) (Host.reduce_andi_all _ _ red hu ValueIdx.ix0 e i)

/-- THE PRECONDITION OPENED: the seven arrays the joining law reads are real arrays. -/
theorem allReal_of_pre [Facts] (a0 : FVec Ideal S100000x128 .f32) (a1 : IVec S2x600000 32) (a2 : FVec Ideal S600000 .f32)
    (a3 : FVec Ideal S128x128 .f32) (a4 a5 : FVec Ideal S384x128 .f32) (a6 a7 : FVec Ideal S384 .f32)
    (a8 : FVec Ideal S1x128 .f32) (a9 : FVec Ideal S1 .f32)
    (h : fn (F := Ideal) a0 a1 a2 a3 a4 a5 a6 a7 a8 a9 = fun _ => 1#1) :
    AllReal a0 ∧ AllReal a2 ∧ AllReal a3 ∧ AllReal a4 ∧ AllReal a5 ∧ AllReal a6 ∧ AllReal a7 := by
  have h0 := congrFun h ValueIdx.ix0
  dsimp only [fn, fn_part1, fn_part2] at h0
  have h43 := IntOp.andi_eq_one.mp h0
  have h38 := IntOp.andi_eq_one.mp h43.1
  have h33 := IntOp.andi_eq_one.mp h38.1
  have h28 := IntOp.andi_eq_one.mp h33.1
  have h23 := IntOp.andi_eq_one.mp h28.1
  have h18 := IntOp.andi_eq_one.mp h23.1
  have h13 := IntOp.andi_eq_one.mp h18.1
  have h8 := IntOp.andi_eq_one.mp h13.1
  exact ⟨allReal_of_all a0 _ _ _ h8.1, allReal_of_all a2 _ _ _ h8.2, allReal_of_all a3 _ _ _ h13.2,
    allReal_of_all a4 _ _ _ h18.2, allReal_of_all a5 _ _ _ h23.2, allReal_of_all a6 _ _ _ h28.2,
    allReal_of_all a7 _ _ _ h33.2⟩

end Cert.Pre_finite_inputs.Decode

end
-- ==== Proof.KernelBody.lean ====
/-
  The kernel's body at one row of its block.

  From a block `a` of 5000 rows of the aggregated features, the whole weight `w`, the classifier's row
  `u` and its bias `b`, the body stores, at row `r` of its one output column,

      (∑ k, max (∑ c, a (r, c) · w (c, k)) 0 · u (0, k)) + b (0, 0):

  two matrix products into zero accumulators (each a plain sum over the 128 contracted entries), the
  maximum with zero between them, and the bias added to every row. The changes of float format between
  the steps are the identity at the ideal instance, and the classifier's row enters the second product
  transposed, so its entry `(k, 0)` there is `u (0, k)`.
-/
import proofs.«151306_j80504866996300_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The first product at `(r, k)`: row `r` of the block against column `k` of the weight. -/
theorem hidden_apply (a : FVec Ideal S5000x128 .bf16) (w : FVec Ideal S128x128 .bf16) (r : Fin 5000) (k : Fin 128) :
    matmul dot_S5000x128_S128x128_S5000x128_1_0_0_1_n_n none a w (constant (F := Ideal) S5000x128 .f32 0x00000000#32) (ix2 r k)
      = ∑ c : Fin 128, a (ix2 r c) * w (ix2 c k) := by
  show FloatOps.matmul dot_S5000x128_S128x128_S5000x128_1_0_0_1_n_n none a w (constant (F := Ideal) _ .f32 0x00000000#32) (ix2 r k) = _
  rw [Ideal.matmul_constant_zero_apply, ← Equiv.sum_comp (contrEquiv1 dot_S5000x128_S128x128_S5000x128_1_0_0_1_n_n 128 rfl rfl).symm]
  refine Finset.sum_congr rfl fun c _ => ?_
  have hc := contrEquiv1_symm_val dot_S5000x128_S128x128_S5000x128_1_0_0_1_n_n 128 rfl rfl c
  have el : dot_S5000x128_S128x128_S5000x128_1_0_0_1_n_n.lhsIdx (ix2 r k) ((contrEquiv1 dot_S5000x128_S128x128_S5000x128_1_0_0_1_n_n 128 rfl rfl).symm c) = ix2 r c :=
    funext fun ax => Fin.ext (by
      match ax with
      | ⟨0, _⟩ =>
        show (dot_S5000x128_S128x128_S5000x128_1_0_0_1_n_n.lhsIdx (ix2 r k) _ (0 : Fin S5000x128.rank)).val = _
        unfold DotDims.lhsIdx
        rw [dif_neg (show ¬(0 : Fin S5000x128.rank) ∈ dot_S5000x128_S128x128_S5000x128_1_0_0_1_n_n.lhsBatch by decide),
          dif_pos (show (0 : Fin S5000x128.rank) ∈ dot_S5000x128_S128x128_S5000x128_1_0_0_1_n_n.lhsNonContracting by decide)]
        rfl
      | ⟨1, _⟩ => exact (dot_S5000x128_S128x128_S5000x128_1_0_0_1_n_n.lhsIdx_val_of_single rfl _ _).trans hc)
  have er : dot_S5000x128_S128x128_S5000x128_1_0_0_1_n_n.rhsIdx (ix2 r k) ((contrEquiv1 dot_S5000x128_S128x128_S5000x128_1_0_0_1_n_n 128 rfl rfl).symm c) = ix2 c k :=
    funext fun ax => Fin.ext (by
      match ax with
      | ⟨0, _⟩ => exact (dot_S5000x128_S128x128_S5000x128_1_0_0_1_n_n.rhsIdx_val_of_single rfl _ _).trans hc
      | ⟨1, _⟩ =>
        show (dot_S5000x128_S128x128_S5000x128_1_0_0_1_n_n.rhsIdx (ix2 r k) _ (1 : Fin S128x128.rank)).val = _
        unfold DotDims.rhsIdx
        rw [dif_neg (show ¬(1 : Fin S128x128.rank) ∈ dot_S5000x128_S128x128_S5000x128_1_0_0_1_n_n.rhsBatch by decide),
          dif_pos (show (1 : Fin S128x128.rank) ∈ dot_S5000x128_S128x128_S5000x128_1_0_0_1_n_n.rhsNonContracting by decide)]
        rfl)
  rw [el, er]

/-- The second product at `(r, 0)`: row `r` against the one column. -/
theorem score_apply (a : FVec Ideal S5000x128 .bf16) (w : FVec Ideal S128x1 .bf16) (r : Fin 5000) :
    matmul dot_S5000x128_S128x1_S5000x1_1_0_0_1_n_n none a w (constant (F := Ideal) S5000x1 .f32 0x00000000#32) (ix2 r (0 : Fin 1))
      = ∑ c : Fin 128, a (ix2 r c) * w (ix2 c (0 : Fin 1)) := by
  show FloatOps.matmul dot_S5000x128_S128x1_S5000x1_1_0_0_1_n_n none a w (constant (F := Ideal) _ .f32 0x00000000#32) (ix2 r (0 : Fin 1)) = _
  rw [Ideal.matmul_constant_zero_apply, ← Equiv.sum_comp (contrEquiv1 dot_S5000x128_S128x1_S5000x1_1_0_0_1_n_n 128 rfl rfl).symm]
  refine Finset.sum_congr rfl fun c _ => ?_
  have hc := contrEquiv1_symm_val dot_S5000x128_S128x1_S5000x1_1_0_0_1_n_n 128 rfl rfl c
  have el : dot_S5000x128_S128x1_S5000x1_1_0_0_1_n_n.lhsIdx (ix2 r (0 : Fin 1)) ((contrEquiv1 dot_S5000x128_S128x1_S5000x1_1_0_0_1_n_n 128 rfl rfl).symm c) = ix2 r c :=
    funext fun ax => Fin.ext (by
      match ax with
      | ⟨0, _⟩ =>
        show (dot_S5000x128_S128x1_S5000x1_1_0_0_1_n_n.lhsIdx (ix2 r (0 : Fin 1)) _ (0 : Fin S5000x128.rank)).val = _
        unfold DotDims.lhsIdx
        rw [dif_neg (show ¬(0 : Fin S5000x128.rank) ∈ dot_S5000x128_S128x1_S5000x1_1_0_0_1_n_n.lhsBatch by decide),
          dif_pos (show (0 : Fin S5000x128.rank) ∈ dot_S5000x128_S128x1_S5000x1_1_0_0_1_n_n.lhsNonContracting by decide)]
        rfl
      | ⟨1, _⟩ => exact (dot_S5000x128_S128x1_S5000x1_1_0_0_1_n_n.lhsIdx_val_of_single rfl _ _).trans hc)
  have er : dot_S5000x128_S128x1_S5000x1_1_0_0_1_n_n.rhsIdx (ix2 r (0 : Fin 1)) ((contrEquiv1 dot_S5000x128_S128x1_S5000x1_1_0_0_1_n_n 128 rfl rfl).symm c) = ix2 c (0 : Fin 1) :=
    funext fun ax => Fin.ext (by
      match ax with
      | ⟨0, _⟩ => exact (dot_S5000x128_S128x1_S5000x1_1_0_0_1_n_n.rhsIdx_val_of_single rfl _ _).trans hc
      | ⟨1, _⟩ =>
        show (dot_S5000x128_S128x1_S5000x1_1_0_0_1_n_n.rhsIdx (ix2 r (0 : Fin 1)) _ (1 : Fin S128x1.rank)).val = _
        unfold DotDims.rhsIdx
        rw [dif_neg (show ¬(1 : Fin S128x1.rank) ∈ dot_S5000x128_S128x1_S5000x1_1_0_0_1_n_n.rhsBatch by decide),
          dif_pos (show (1 : Fin S128x1.rank) ∈ dot_S5000x128_S128x1_S5000x1_1_0_0_1_n_n.rhsNonContracting by decide)]
        rfl)
  rw [el, er]

/-- THE BODY'S STORED VALUE AT ROW `r`. -/
theorem pay_apply (x0 : Vec Ideal S5000x128 .f32) (x1 : Vec Ideal S128x128 .f32) (x2 : Vec Ideal S1x128 .f32)
    (x3 : Vec Ideal S1x1 .f32) (r : Fin 5000) :
    k0_pay1 x0 x1 x2 x3 (ix2 r (0 : Fin 1))
      = (∑ k : Fin 128, max (∑ c : Fin 128, x0 (ix2 r c) * x1 (ix2 c k)) (Ideal.ofBits .f32 0x00000000#32)
          * x2 (ix2 (0 : Fin 1) k)) + x3 (ix2 (0 : Fin 1) (0 : Fin 1)) := by
  unfold k0_pay1
  dsimp only
  rw [addf_apply, score_apply, broadcastTo_1b_ab_apply]
  simp only [shapeCast_self]
  refine congrArg (· + x3 (ix2 (0 : Fin 1) (0 : Fin 1))) (Finset.sum_congr rfl fun k _ => ?_)
  rw [transpose_ix2_apply]
  show max (matmul dot_S5000x128_S128x128_S5000x128_1_0_0_1_n_n none _ _ _ (ix2 r k)) (Ideal.ofBits .f32 0x00000000#32) * x2 (ix2 (0 : Fin 1) k) = _
  rw [hidden_apply]
  rfl

/-- The same at any index `y` of the one-column block: its row is `y 0`. -/
theorem pay_apply_idx (x0 : Vec Ideal S5000x128 .f32) (x1 : Vec Ideal S128x128 .f32) (x2 : Vec Ideal S1x128 .f32)
    (x3 : Vec Ideal S1x1 .f32) (y : S5000x1.Idx) :
    k0_pay1 x0 x1 x2 x3 y
      = (∑ k : Fin 128, max (∑ c : Fin 128, x0 (ix2 (y 0) c) * x1 (ix2 c k)) (Ideal.ofBits .f32 0x00000000#32)
          * x2 (ix2 (0 : Fin 1) k)) + x3 (ix2 (0 : Fin 1) (0 : Fin 1)) := by
  obtain ⟨r, q, rfl⟩ : ∃ (r : Fin 5000) (q : Fin 1), y = ix2 r q := ⟨y 0, y 1, eq_ix2 y⟩
  obtain rfl : q = 0 := Subsingleton.elim _ _
  exact pay_apply x0 x1 x2 x3 r

end Cert.KernelIdeal.Body

end
-- ==== Proof.Spec.lean ====
/-
  The specification: one node's score.

  From an array `A` of aggregated features (one row of 128 per node), a 128 × 128 weight `W`, the classifier's row `U`
  and its bias `b`, node `v` scores

      (∑ k, max (∑ c, A (v, c) · W (c, k)) 0 · U (0, k)) + b:

  the node's aggregated row times the weight, rectified, against the classifier's row, plus the bias. The zero of the
  rectifier stays the float pattern `0.0`: both programs spell the same word there, and it is never evaluated.
-/
import Idealize.ShloMosaic.PureOps.Ideal
import Idealize.ShloMosaic.Lib.ValueIdx

noncomputable section

namespace NodeScore

open Idealize.ShloMosaic Idealize.ShloMosaic.ValueIdx

/-- The score of node `v`. -/
def rowScore (A : (⟨2, ![100000, 128]⟩ : Shape).Idx → EReal) (W : (⟨2, ![128, 128]⟩ : Shape).Idx → EReal)
    (U : (⟨2, ![1, 128]⟩ : Shape).Idx → EReal) (b : EReal) (v : Fin 100000) : EReal :=
  (∑ k : Fin 128, max (∑ c : Fin 128, A (ix2 v c) * W (ix2 c k)) (Ideal.ofBits .f32 0x00000000#32)
    * U (ix2 (0 : Fin 1) k)) + b

end NodeScore

end
-- ==== Proof.KernelValue.lean ====
/-
  The kernel's output array, whole.

  The grid has 20 points; point `t` stages rows `5000·t … 5000·t + 4999` of the aggregated features, the whole
  weight, the classifier's row and the bias, and writes back rows `5000·t …` of the one output column. So what point
  `t` writes is block `t` of ONE array: at row `i`, the node score of the arrays the region was given. The 20 blocks
  tile the 100000 rows (row `i` lies in block `i / 5000`), so after the run the output array is that function.
-/
import proofs.«151306_j80504866996300_2_alg».proof.Proof.Gen.KernelIdeal.Value
import proofs.«151306_j80504866996300_2_alg».proof.Proof.KernelBody
import proofs.«151306_j80504866996300_2_alg».proof.Proof.Spec

noncomputable section

namespace Cert.KernelIdeal.Whole

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

-- the arrays the region is given are used here as they are, never through the operations that made them
set_option allowUnsafeReducibility true in
attribute [local irreducible] Cert.KernelIdeal.Gen.V

theorem origin : (![0, 0] : Fin 2 → Nat) = fun _ => 0 := funext fun a => by fin_cases a <;> rfl

/-- The printed index maps, decided over the 20 grid points: the features' and the output's blocks move down with
    the point; the weight, the classifier's row and the bias stay at block `(0, 0)`. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The output array as ONE function of the arrays the region is given: row `i` holds node `i`'s score. -/
def scores (c : Dev nD) : S100000x1.Idx → EReal := fun i =>
  NodeScore.rowScore (V m c main_v84) (V m c main_v37) (V m c main_arg8)
    ((V m c main_v85 : S1x1.Idx → EReal) (ix2 (0 : Fin 1) (0 : Fin 1))) (i 0)

/-! ## The input windows' blocks, read at an index -/

/-- Row `y 0` of point `t`'s block of the aggregated features is row `5000·t + y 0` of the array. -/
theorem features_block (c : Dev nD) (t : Fin cfg0.N) (y : S5000x128.Idx) (v : Fin 100000)
    (hv : v.val = t.val * 5000 + (y 0).val) : iblk m c 0 t y = V m c main_v84 (ix2 v (y 1)) := by
  obtain ⟨e00, e01, -⟩ := index_maps t
  unfold iblk
  rw [View.read_apply]
  refine (cast_eq _ _).trans ?_
  refine congrArg (V m c main_v84) (funext fun a => Fin.ext ?_)
  match a with
  | ⟨0, _⟩ =>
    show win0_0.index t (0 : Fin 2) * 5000 + 1 * (y 0).val = v.val
    omega
  | ⟨1, _⟩ =>
    show win0_0.index t (1 : Fin 2) * 128 + 1 * (y 1).val = (y 1).val
    omega

/-- Every point's block of the weight is the whole weight. -/
theorem weight_block (c : Dev nD) (t : Fin cfg0.N) (y : S128x128.Idx) : iblk m c 1 t y = V m c main_v37 y := by
  obtain ⟨-, -, e10, e11, -⟩ := index_maps t
  unfold iblk
  rw [View.read_apply]
  refine (cast_eq _ _).trans ?_
  refine congrArg (V m c main_v37) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Every point's block of the classifier's row is the whole row. -/
theorem classifier_block (c : Dev nD) (t : Fin cfg0.N) (y : S1x128.Idx) : iblk m c 2 t y = V m c main_arg8 y := by
  obtain ⟨-, -, -, -, e20, e21, -⟩ := index_maps t
  unfold iblk
  rw [View.read_apply]
  refine (cast_eq _ _).trans ?_
  refine congrArg (V m c main_arg8) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Every point's block of the bias is the bias. -/
theorem bias_block (c : Dev nD) (t : Fin cfg0.N) (y : S1x1.Idx) : iblk m c 3 t y = V m c main_v85 y := by
  obtain ⟨-, -, -, -, -, -, e30, e31, -⟩ := index_maps t
  unfold iblk
  rw [View.read_apply]
  refine (cast_eq _ _).trans ?_
  refine congrArg (V m c main_v85) (funext fun a => Fin.ext ?_)
  match a with
  | ⟨0, _⟩ => show win0_3.index t (0 : Fin 2) * 1 + 1 * (y 0).val = (y 0).val; omega
  | ⟨1, _⟩ => show win0_3.index t (1 : Fin 2) * 1 + 1 * (y 1).val = (y 1).val; omega

/-! ## What a point writes back -/

set_option maxHeartbeats 1000000 in
/-- WHAT POINT `t` WRITES BACK is block `t` of `scores`. -/
theorem flushed_eq (c : Dev nD) (t : Fin cfg0.N) :
    (dats m 0 c).flushed 4 t = ((cfg0.win 4).blk t).view.read (Elt Ideal) (scores m c) := by
  show (cfg0.win 4).cut (grid0.coords t) ((dats m 0 c).after 4 t) = _
  rw [after0_4]
  unfold out0_4
  rw [View.canon_unit_zero origin]
  simp only [View.ld_unit_zero (S := S5000x128) origin, View.ld_unit_zero (S := S128x128) origin,
    View.ld_unit_zero (S := S1x128) origin, View.ld_unit_zero (S := S1x1) origin]
  funext j
  rw [View.read_apply]
  refine Eq.trans ?_ (cast_eq _ _).symm
  show k0_pay1 (iblk m c 0 t) (iblk m c 1 t) (iblk m c 2 t) (iblk m c 3 t) ((cfg0.win 4).xinj (grid0.coords t) j) = _
  refine (Body.pay_apply_idx _ _ _ _ _).trans ?_
  obtain ⟨-, -, -, -, -, -, -, -, e40, e41⟩ := index_maps t
  have hj : (j 0).val < 5000 := (j 0).isLt
  have hrow : ((((cfg0.win 4).blk t).view.emb j) 0).val = t.val * 5000 + (((cfg0.win 4).xinj (grid0.coords t) j) 0).val := by
    show win0_4.index t (0 : Fin 2) * 5000 + 1 * (j 0).val = t.val * 5000 + (j 0).val
    omega
  unfold scores NodeScore.rowScore
  rw [bias_block m c t]
  refine congrArg (· + (V m c main_v85 : S1x1.Idx → EReal) (ix2 (0 : Fin 1) (0 : Fin 1))) (Finset.sum_congr rfl fun k _ => ?_)
  rw [classifier_block m c t]
  exact congrArg (fun z => max z (Ideal.ofBits .f32 0x00000000#32) * V m c main_arg8 (ix2 (0 : Fin 1) k))
    (Finset.sum_congr rfl fun c' _ => by
      rw [features_block m c t _ ((((cfg0.win 4).blk t).view.emb j) 0) hrow, weight_block m c t])

/-- An index of the output array is in point `t`'s block iff each coordinate is in the block's range. -/
theorem mem_blk (t : Fin cfg0.N) (i : S100000x1.Idx) :
    i ∈ ((cfg0.win 4).blk t).view.set ↔ ∀ a : Fin 2, win0_4.index t a * S5000x1.size a ≤ (i a).val
      ∧ (i a).val < win0_4.index t a * S5000x1.size a + S5000x1.size a := by
  show i ∈ ((View.whole main_v86).slice (win0_4.rect t)).set ↔ _
  rw [View.set_slice_whole, Rect.mem_set_unit]
  exact Iff.rfl

/-- Every row is in some point's block: row `i` in block `i / 5000`. -/
theorem covered (i : S100000x1.Idx) :
    ∃ t : Fin cfg0.N, (cfg0.win 4).flush t = true ∧ i ∈ ((cfg0.win 4).blk t).view.set := by
  have hi0 : (i 0).val < 100000 := (i 0).isLt
  have hi1 : (i 1).val < 1 := (i 1).isLt
  have ht : (i 0).val / 5000 < 20 := by omega
  obtain ⟨-, -, -, -, -, -, -, -, e40, e41⟩ := index_maps ⟨(i 0).val / 5000, ht⟩
  refine ⟨⟨(i 0).val / 5000, ht⟩, flush0_4 _, ?_⟩
  rw [mem_blk]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win0_4.index ⟨(i 0).val / 5000, ht⟩ (1 : Fin 2) * 1 ≤ (i 1).val
      ∧ (i 1).val < win0_4.index ⟨(i 0).val / 5000, ht⟩ (1 : Fin 2) * 1 + 1
    rw [e41]
    omega

/-- THE OUTPUT ARRAY after the run is `scores`. -/
theorem final (c : Dev nD) : (dats m 0 c).arrAt 4 cfg0.N = scores m c :=
  (dats m 0 c).arrAt_eq_of_cover 4 (scores m c) (fun t _ => flushed_eq m c t) covered

/-- The kernel's run, its result named: every node's score over the arrays the region is given. -/
theorem run : θ_run defs (onTc (τ := τ) (main (F := Ideal))) ⟨m, fun _ => 0, ρ⟩ fun r => ∀ c : Dev nD,
      r.2.mem ((c : Thread nD τ).loc main_v86) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.LibRowGatherScatter.lean ====
/-
  A gather of rows and an accumulating scatter of rows, read at an entry.

  `x[rows]` for a matrix `x : [N, C]` and row numbers `rows : [R, 1]` lowers to a gather whose result
  `[R, C]` holds, at `(e, c)`, the entry `(ρ e, c)` of `x`, where `ρ e` is the row number `rows[e, 0]`
  read as a signed integer and clamped into `[0, N − 1]`: the column is kept, the row is looked up.

  `segment_sum(upd, rows)` for updates `upd : [R, C]` lowers to an accumulating scatter into `[N, C]`:
  update `(e, c)` lands on entry `(rows[e, 0], c)` when that row number, read signed and NOT clamped,
  lies in `[0, N)`, and is dropped otherwise. So entry `(v, k)` of the result is the operand's entry plus
  the sum, over the update rows `e` whose row number is `v`, of `upd (e, k)`.
-/
import Idealize.ShloMosaic.Lib.ValueIdx
import Idealize.ShloMosaic.PureOps.Ideal
import Idealize.ShloMosaic.PureOps.Ideal.Laws

noncomputable section

namespace RowOps

open Idealize.ShloMosaic Idealize.ShloMosaic.ValueIdx

/-- The entry `[e, 0]` of a column of `R` row numbers. -/
abbrev col0 {R : Nat} (e : Fin R) : (⟨2, ![R, 1]⟩ : Shape).Idx := ix2 e (⟨0, Nat.one_pos⟩ : Fin 1)

/-! ## Rows gathered -/

section Gather
variable {α : Type}

/-- The dimension numbers of `x[rows]`: operand `[N, C]`, start indices `[R, 1]`, result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of the operand that result row `e` reads: its row number read signed, clamped into `[0, N − 1]`. -/
def gatheredRow {N R w : Nat} (hN : 0 < N) (idx : IVec ⟨2, ![R, 1]⟩ w) (e : Fin R) : Fin N :=
  ⟨min (idx (col0 e)).toInt.toNat (N - 1), by omega⟩

/-- THE ROW GATHER READ AT `(e, c)`: entry `c` of the looked-up row. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (gatheredRow hN idx e) c) := by
  unfold Host.gather
  congr 1
  have h0 : ((rowGatherDims N R C wf).operandIdx (ix2 e c) idx (0 : Fin 2)).val = (gatheredRow hN idx e).val := by
    show (rowGatherDims N R C wf).start (ix2 e c) idx (0 : Fin 2) + (rowGatherDims N R C wf).batchCoord (ix2 e c) (0 : Fin 2)
        + (rowGatherDims N R C wf).offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = col0 e := by
      funext b; refine Fin.ext ?_
      match b with
      | ⟨0, _⟩ => rfl
      | ⟨1, _⟩ => rfl
    rw [hsi]
    rfl
  have h1 : ((rowGatherDims N R C wf).operandIdx (ix2 e c) idx (1 : Fin 2)).val = c.val := by
    show (rowGatherDims N R C wf).start (ix2 e c) idx (1 : Fin 2) + (rowGatherDims N R C wf).batchCoord (ix2 e c) (1 : Fin 2)
        + (rowGatherDims N R C wf).offCoord (ix2 e c) (1 : Fin 2) = _
    rw [GatherDims.batchCoord_eq_zero _ _ _ List.not_mem_nil, Nat.add_zero]
    have hn : (1 : Fin 2) ∉ (rowGatherDims N R C wf).startIndexMap := fun h =>
      absurd (List.mem_singleton.mp h) (by decide : ¬ (1 : Fin 2) = 0)
    have hk : (1 : Fin 2) ∈ (rowGatherDims N R C wf).sKept :=
      (GatherDims.mem_sKept _ _).mpr ⟨fun h => absurd (List.mem_singleton.mp h) (by decide : ¬ (1 : Fin 2) = 0),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

end Gather

/-! ## Rows scattered and accumulated -/

section Scatter

/-- The dimension numbers of `segment_sum` over rows: operand `[N, C]`, scatter indices `[R, 1]`, updates `[R, C]`. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window of update `(e, c)` starts at its row number, read signed. -/
theorem start_row (e : Fin R) (c : Fin C) :
    (rowScatterDims N R C wf).start (ix2 e c) idx (0 : Fin 2) = (idx (col0 e)).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- On the column axis it starts at zero. -/
theorem start_col (e : Fin R) (c : Fin C) : (rowScatterDims N R C wf).start (ix2 e c) idx (1 : Fin 2) = 0 := by
  unfold ScatterDims.start
  rw [dif_neg (fun h => absurd (List.mem_singleton.mp h) (by decide : ¬ (1 : Fin 2) = 0))]

/-- The row axis is inserted: the window has no extent there. -/
theorem window_row (e : Fin R) (c : Fin C) : (rowScatterDims N R C wf).window (ix2 e c) (0 : Fin 2) = 0 := by
  unfold ScatterDims.window
  rw [dif_neg]
  intro h
  exact (List.mem_filter.mp h).2 |> fun h' => by simp at h'

/-- On the column axis the window coordinate is the update's column. -/
theorem window_col (e : Fin R) (c : Fin C) : (rowScatterDims N R C wf).window (ix2 e c) (1 : Fin 2) = c.val := by
  unfold ScatterDims.window
  rw [dif_pos (show (1 : Fin 2) ∈ (rowScatterDims N R C wf).sKept from
    List.mem_filter.mpr ⟨List.mem_finRange _, by simp⟩)]
  rfl

/-- WHERE UPDATE `(e, c)` LANDS: on `(v, k)` exactly when its row number is `v` and its column is `k`. -/
theorem resultIdx?_rows (e : Fin R) (c : Fin C) (v : Fin N) (k : Fin C) :
    (rowScatterDims N R C wf).resultIdx? (ix2 e c) idx = some (ix2 v k)
      ↔ (idx (col0 e)).toInt = (v.val : Int) ∧ c = k := by
  have hs0 := start_row wf idx e c
  have hs1 := start_col wf idx e c
  have hw0 := window_row wf e c
  have hw1 := window_col wf e c
  unfold ScatterDims.resultIdx?
  split
  · rename_i h
    rw [Option.some.injEq]
    constructor
    · intro hf
      have h0 := congrArg Fin.val (congrFun hf (0 : Fin 2))
      have h1 := congrArg Fin.val (congrFun hf (1 : Fin 2))
      have hp := (h (0 : Fin 2)).1
      simp only [hs0, hw0, hs1, hw1] at h0 h1 hp
      refine ⟨?_, Fin.ext ?_⟩
      · have : ((idx (col0 e)).toInt + ((0 : Nat) : Int)).toNat = v.val := h0
        omega
      · have : ((0 : Int) + (c.val : Int)).toNat = k.val := h1
        omega
    · rintro ⟨hv, rfl⟩
      funext a
      refine Fin.ext ?_
      match a with
      | ⟨0, _⟩ =>
        show ((rowScatterDims N R C wf).start (ix2 e c) idx (0 : Fin 2)
          + ((rowScatterDims N R C wf).window (ix2 e c) (0 : Fin 2) : Int)).toNat = v.val
        rw [hs0, hw0, hv]; simp
      | ⟨1, _⟩ =>
        show ((rowScatterDims N R C wf).start (ix2 e c) idx (1 : Fin 2)
          + ((rowScatterDims N R C wf).window (ix2 e c) (1 : Fin 2) : Int)).toNat = c.val
        rw [hs1, hw1]; simp
  · rename_i h
    constructor
    · intro hf; cases hf
    · rintro ⟨hv, rfl⟩
      refine (h fun a => ?_).elim
      match a with
      | ⟨0, _⟩ =>
        show 0 ≤ (rowScatterDims N R C wf).start (ix2 e c) idx (0 : Fin 2)
            + ((rowScatterDims N R C wf).window (ix2 e c) (0 : Fin 2) : Int)
          ∧ (rowScatterDims N R C wf).start (ix2 e c) idx (0 : Fin 2)
            + ((rowScatterDims N R C wf).window (ix2 e c) (0 : Fin 2) : Int) < (N : Int)
        rw [hs0, hw0, hv]
        have := v.isLt
        omega
      | ⟨1, _⟩ =>
        show 0 ≤ (rowScatterDims N R C wf).start (ix2 e c) idx (1 : Fin 2)
            + ((rowScatterDims N R C wf).window (ix2 e c) (1 : Fin 2) : Int)
          ∧ (rowScatterDims N R C wf).start (ix2 e c) idx (1 : Fin 2)
            + ((rowScatterDims N R C wf).window (ix2 e c) (1 : Fin 2) : Int) < (C : Int)
        rw [hs1, hw1]
        have := c.isLt
        omega

/-- The update rows whose row number is `v`. -/
def rowsOnto (v : Fin N) : Finset (Fin R) := Finset.univ.filter fun e => (idx (col0 e)).toInt = (v.val : Int)

/-- THE ROW SCATTER READ AT `(v, k)`, at the ideal instance: the operand's entry plus the sum, over the update
    rows whose row number is `v`, of their entry in column `k`. -/
theorem scatterAdd_rows_apply {φ : FTy} (x : FVec Ideal ⟨2, ![N, C]⟩ φ) (upd : FVec Ideal ⟨2, ![R, C]⟩ φ)
    (v : Fin N) (k : Fin C) :
    Host.scatterAdd (rowScatterDims N R C wf) x idx upd (ix2 v k)
      = x (ix2 v k) + ∑ e ∈ rowsOnto idx v, upd (ix2 e k) := by
  show Ideal.hostScatterAdd (rowScatterDims N R C wf) x idx upd (ix2 v k) = _
  unfold Ideal.hostScatterAdd rowsOnto
  congr 1
  rw [Finset.sum_filter, sum_idx2, Finset.sum_filter]
  refine Finset.sum_congr rfl fun e _ => ?_
  simp only [resultIdx?_rows wf idx e _ v k]
  by_cases hv : (idx (col0 e)).toInt = (v.val : Int)
  · simp only [hv, true_and, if_true]
    rw [Finset.sum_ite_eq' Finset.univ k fun c => upd (ix2 e c)]
    simp
  · simp only [hv, false_and, if_false]
    exact Finset.sum_const_zero

end Scatter

end RowOps

end
-- ==== Proof.RefRead.lean ====
/-
  The reference's result, read at a row.

  Its output at row `v` is `(∑ k, max (agg (v, k)) 0 · u (0, k)) + b`, where `agg` is the aggregated and
  already weighted feature array. Entry `(v, k)` of `agg` is the sum, over the edges `e` (self loops included)
  whose target is `v`, of the edge's normalisation times entry `k` of the source node's weighted row: the
  accumulating scatter keeps the column and groups the rows by target, and the gather before it looks the source
  row up. The weighted row itself is the plain product `∑ c, x (ρ e, c) · W (c, k)`. The weight `W`, the
  normalisation and the two columns of node numbers stay named: nothing here depends on how they are computed.
-/
import proofs.«151306_j80504866996300_2_alg».proof.Proof.Gen.ReferenceIdeal.Read
import proofs.«151306_j80504866996300_2_alg».proof.Proof.LibRowGatherScatter

noncomputable section

namespace Cert.ReferenceIdeal.RefValue

open Cert.ReferenceIdeal Cert.ReferenceIdeal.Gen Cert.ReferenceIdeal.Read Idealize.ShloMosaic Idealize.ShloMosaic.ValueIdx RowOps

variable (x0 : (⟨S100000x128, .f32⟩ : BufTy).Contents (Elt Ideal)) (x1 : (⟨S2x600000, .i32⟩ : BufTy).Contents (Elt Ideal))
  (x2 : (⟨S600000, .f32⟩ : BufTy).Contents (Elt Ideal)) (x3 : (⟨S128x128, .f32⟩ : BufTy).Contents (Elt Ideal))
  (x4 x5 : (⟨S384x128, .f32⟩ : BufTy).Contents (Elt Ideal)) (x6 x7 : (⟨S384, .f32⟩ : BufTy).Contents (Elt Ideal))
  (x8 : (⟨S1x128, .f32⟩ : BufTy).Contents (Elt Ideal)) (x9 : (⟨S1, .f32⟩ : BufTy).Contents (Elt Ideal))

/-- THE OUTPUT AT ROW `v`: the rectified aggregate's row against the classifier's row, plus the bias. -/
theorem out_apply (v : Fin 100000) :
    val_main_v91 (F := Ideal) x0 x1 x2 x3 x4 x5 x6 x7 x8 x9 (ix2 v (0 : Fin 1))
      = (∑ k : Fin 128, max (val_main_v85 (F := Ideal) x0 x1 x2 x3 x4 x5 x6 x7 (ix2 v k)) (Ideal.ofBits .f32 0x00000000#32)
          * x8 (ix2 (0 : Fin 1) k)) + x9 (ix1 (0 : Fin 1)) := by
  rw [val_main_v91_apply, val_main_v88_apply, val_main_v90_apply, val_main_v89_apply]
  show (∑ k : Fin 128, _) + _ = _
  refine congr (congrArg _ (Finset.sum_congr rfl fun k _ => ?_)) ?_
  · rw [val_main_v86_apply, val_main_v87_apply, val_main_call1_v0_apply, val_main_call1_cst_apply]
    have e1 : lidx_main_v88 (ix2 v (0 : Fin 1)) k = ix2 v k :=
      funext fun a => Fin.ext (by match a with | ⟨0, _⟩ => rfl | ⟨1, _⟩ => rfl)
    have e2 : idx_main_v87 (ridx_main_v88 (ix2 v (0 : Fin 1)) k) = ix2 (0 : Fin 1) k :=
      funext fun a => Fin.ext (by match a with | ⟨0, _⟩ => rfl | ⟨1, _⟩ => rfl)
    rw [e1, e2]
    rfl
  · exact congrArg x9 (funext fun a => Fin.ext (by match a with | ⟨0, _⟩ => rfl))

/-- THE AGGREGATE AT `(v, k)`: over the edges onto `v`, the normalisation times the source row's product with
    column `k` of the weight. -/
theorem agg_apply (v : Fin 100000) (k : Fin 128) :
    val_main_v85 (F := Ideal) x0 x1 x2 x3 x4 x5 x6 x7 (ix2 v k)
      = Ideal.ofBits .f32 0x00000000#32 + ∑ e ∈ rowsOnto (val_main_v84 (F := Ideal) x1) v,
          val_main_v71 (F := Ideal) x1 x2 (ix1 e)
            * ∑ c : Fin 128, x0 (ix2 (gatheredRow (N := 100000) (by decide) (val_main_v79 (F := Ideal) x1) e) c)
                * val_main_v37 (F := Ideal) x3 x4 x5 x6 x7 (ix2 c k) := by
  unfold val_main_v85
  show Host.scatterAdd (rowScatterDims 100000 700000 128 _) _ _ _ (ix2 v k) = _
  rw [scatterAdd_rows_apply, val_main_v83_apply, val_main_cst_14_apply]
  refine congrArg (Ideal.ofBits .f32 0x00000000#32 + ·) (Finset.sum_congr rfl fun e _ => ?_)
  rw [val_main_v82_apply, val_main_v81_apply, val_main_v73_apply]
  have e1 : idx_main_v73 (idx_main_v81 (ix2 e k)) = ix1 e :=
    funext fun a => Fin.ext (by match a with | ⟨0, _⟩ => rfl)
  rw [e1]
  show _ * val_main_v80 (F := Ideal) x0 x1 x3 x4 x5 x6 x7 (ix2 e k) = _
  unfold val_main_v80
  show _ * Host.gather (rowGatherDims 100000 700000 128 _) _ _ (ix2 e k) = _
  rw [gather_rows_apply (by decide), val_main_v72_apply]
  refine congrArg _ (Finset.sum_congr rfl fun c _ => ?_)
  have e2 : lidx_main_v72 (ix2 (gatheredRow (N := 100000) (by decide) (val_main_v79 (F := Ideal) x1) e) k) c
      = ix2 (gatheredRow (N := 100000) (by decide) (val_main_v79 (F := Ideal) x1) e) c :=
    funext fun a => Fin.ext (by match a with | ⟨0, _⟩ => rfl | ⟨1, _⟩ => rfl)
  have e3 : ridx_main_v72 (ix2 (gatheredRow (N := 100000) (by decide) (val_main_v79 (F := Ideal) x1) e) k) c = ix2 c k :=
    funext fun a => Fin.ext (by match a with | ⟨0, _⟩ => rfl | ⟨1, _⟩ => rfl)
  rw [e2, e3]

end Cert.ReferenceIdeal.RefValue

end
-- ==== Proof.Consts.lean ====
/-
  The float literals of the shared normalisation, as the real numbers their patterns denote: `1.0` is the real
  one, `1e-30` (the floor under a node's degree before its reciprocal square root) is the positive real
  `10633824 · 2⁻¹²³`, and `0.0` is the real zero. Their patterns are unfolded here, once.
-/
import proofs.«151306_j80504866996300_2_alg».proof.Proof.LibRealArrays

noncomputable section

namespace Cert.Consts

open Idealize.ShloMosaic RealArrays

/-- `1.0` denotes the real one. -/
theorem ofBits_one : Ideal.ofBits .f32 0x3F800000#32 = ((1 : ℝ) : EReal) := by
  simp [Ideal.ofBits, Ideal.ieee, -EReal.coe_mul]; norm_num

/-- `1.0` is a positive real number. -/
theorem isPos_one : IsPos (Ideal.ofBits .f32 0x3F800000#32) := ⟨1, one_pos, ofBits_one⟩

/-- The pattern of `1e-30` denotes `10633824 · 2⁻¹²³`. -/
theorem ofBits_floor : Ideal.ofBits .f32 0x0DA24260#32 = ((10633824 * (2 : ℝ) ^ (-123 : ℤ) : ℝ) : EReal) := by
  simp [Ideal.ofBits, Ideal.ieee, -EReal.coe_mul]

/-- `1e-30` is a positive real number. -/
theorem isPos_floor : IsPos (Ideal.ofBits .f32 0x0DA24260#32) := ⟨_, by positivity, ofBits_floor⟩

/-- `0.0` is a real number. -/
theorem isReal_zero : IsReal (Ideal.ofBits .f32 0x00000000#32) := by
  rw [Ideal.ofBits_zero_f32]; exact RealArrays.isReal_zero

end Cert.Consts

end
-- ==== Proof.Finite.lean ====
/-
  Under finite inputs the evolved weight and the edge normalisation are arrays of real numbers.

  THE WEIGHT. The two gate pre-activations are matrix products of real arrays plus real biases, so they are real.
  A gate is `1 / (1 + e^(−t))` with `t` real: the exponential of a real number is a positive real, one plus it is a
  positive real, and one over a positive real is real. The candidate is the hyperbolic tangent of a real number.
  The new weight is a sum of products of these with the old weight: real.

  THE NORMALISATION. Every edge weight is real (a given edge's, or the self loop's one), so every node's degree,
  an accumulated sum of edge weights, is real. Its maximum with the positive floor `1e-30` is a positive real, whose
  reciprocal square root is real; the selection between that and zero is real whichever way it goes. A gather reads
  entries of this array, whatever the node numbers are, and the normalisation is a product of three such reals.
-/
import proofs.«151306_j80504866996300_2_alg».proof.Proof.Gen.ReferenceIdeal.Read
import proofs.«151306_j80504866996300_2_alg».proof.Proof.LibRealArrays
import proofs.«151306_j80504866996300_2_alg».proof.Proof.Consts

noncomputable section

namespace Cert.ReferenceIdeal.Finite

open Cert.ReferenceIdeal Cert.ReferenceIdeal.Gen Cert.ReferenceIdeal.Read Idealize.ShloMosaic RealArrays

variable {x1 : (⟨S2x600000, .i32⟩ : BufTy).Contents (Elt Ideal)} {x2 : (⟨S600000, .f32⟩ : BufTy).Contents (Elt Ideal)}
  {x3 : (⟨S128x128, .f32⟩ : BufTy).Contents (Elt Ideal)} {x4 x5 : (⟨S384x128, .f32⟩ : BufTy).Contents (Elt Ideal)}
  {x6 x7 : (⟨S384, .f32⟩ : BufTy).Contents (Elt Ideal)}

/-! ## The literals, as scalars of shape `[]` -/

theorem pos_cst : AllPos (s := S_) (val_main_cst (F := Ideal)) := fun _ => Cert.Consts.isPos_one
theorem pos_cst_0 : AllPos (s := S_) (val_main_cst_0 (F := Ideal)) := fun _ => Cert.Consts.isPos_one
theorem pos_cst_1 : AllPos (s := S_) (val_main_cst_1 (F := Ideal)) := fun _ => Cert.Consts.isPos_one
theorem pos_cst_2 : AllPos (s := S_) (val_main_cst_2 (F := Ideal)) := fun _ => Cert.Consts.isPos_one
theorem pos_cst_3 : AllPos (s := S_) (val_main_cst_3 (F := Ideal)) := fun _ => Cert.Consts.isPos_one
theorem pos_cst_4 : AllPos (s := S_) (val_main_cst_4 (F := Ideal)) := fun _ => Cert.Consts.isPos_one
theorem real_cst_5 : AllReal (s := S_) (val_main_cst_5 (F := Ideal)) := fun _ => Cert.Consts.isReal_zero
theorem pos_cst_7 : AllPos (s := S_) (val_main_cst_7 (F := Ideal)) := fun _ => Cert.Consts.isPos_floor
theorem real_cst_8 : AllReal (s := S_) (val_main_cst_8 (F := Ideal)) := fun _ => Cert.Consts.isReal_zero

/-! ## The stages that are a literal spread over an array -/

theorem pos_v19 : AllPos (s := S128x128) (val_main_v19 (F := Ideal)) := pos_cst.broadcastInDim _ _
theorem real_v21 : AllReal (s := S128x128) (val_main_v21 (F := Ideal)) := (pos_cst_0.broadcastInDim _ _).allReal
theorem pos_v26 : AllPos (s := S128x128) (val_main_v26 (F := Ideal)) := pos_cst_1.broadcastInDim _ _
theorem real_v28 : AllReal (s := S128x128) (val_main_v28 (F := Ideal)) := (pos_cst_2.broadcastInDim _ _).allReal
theorem real_v33 : AllReal (s := S128x128) (val_main_v33 (F := Ideal)) := (pos_cst_3.broadcastInDim _ _).allReal
theorem real_v45 : AllReal (s := S100000) (val_main_v45 (F := Ideal)) := (pos_cst_4.broadcastInDim _ _).allReal
theorem real_v47 : AllReal (s := S100000) (val_main_v47 (F := Ideal)) := real_cst_5.broadcastInDim _ _
theorem pos_v52 : AllPos (s := S100000) (val_main_v52 (F := Ideal)) := pos_cst_7.broadcastInDim _ _
theorem real_call0_v0 : AllReal (s := S_) (val_main_call0_v0 (F := Ideal)) := real_cst_8
theorem real_call0_v1 : AllReal (s := S100000) (val_main_call0_v1 (F := Ideal)) := real_call0_v0.broadcastInDim _ _

/-! ## The evolved weight -/

section Weight
variable (h3 : AllReal (s := S128x128) x3) (h4 : AllReal (s := S384x128) x4) (h5 : AllReal (s := S384x128) x5)
  (h6 : AllReal (s := S384) x6) (h7 : AllReal (s := S384) x7)
include h3 h4 h5 h6 h7

theorem real_v0 : AllReal (s := S128x384) (val_main_v0 (F := Ideal) x4) := h4.transpose _ _
theorem real_v1 : AllReal (s := S128x384) (val_main_v1 (F := Ideal) x3 x4) :=
  AllReal.hostDotGeneral _ _ h3 (real_v0 h3 h4 h5 h6 h7)
theorem real_v2 : AllReal (s := S1x384) (val_main_v2 (F := Ideal) x6) := h6.broadcastInDim _ _
theorem real_v3 : AllReal (s := S128x384) (val_main_v3 (F := Ideal) x6) := (real_v2 h3 h4 h5 h6 h7).broadcastInDim _ _
theorem real_v4 : AllReal (s := S128x384) (val_main_v4 (F := Ideal) x3 x4 x6) := (real_v1 h3 h4 h5 h6 h7).addf (real_v3 h3 h4 h5 h6 h7)
theorem real_v5 : AllReal (s := S128x384) (val_main_v5 (F := Ideal) x5) := h5.transpose _ _
theorem real_v6 : AllReal (s := S128x384) (val_main_v6 (F := Ideal) x3 x5) :=
  AllReal.hostDotGeneral _ _ h3 (real_v5 h3 h4 h5 h6 h7)
theorem real_v7 : AllReal (s := S1x384) (val_main_v7 (F := Ideal) x7) := h7.broadcastInDim _ _
theorem real_v8 : AllReal (s := S128x384) (val_main_v8 (F := Ideal) x7) := (real_v7 h3 h4 h5 h6 h7).broadcastInDim _ _
theorem real_v9 : AllReal (s := S128x384) (val_main_v9 (F := Ideal) x3 x5 x7) := (real_v6 h3 h4 h5 h6 h7).addf (real_v8 h3 h4 h5 h6 h7)
theorem real_v10 : AllReal (s := S128x128) (val_main_v10 (F := Ideal) x3 x4 x6) := (real_v4 h3 h4 h5 h6 h7).extractStridedSlice _ _
theorem real_v11 : AllReal (s := S128x128) (val_main_v11 (F := Ideal) x3 x4 x6) := (real_v4 h3 h4 h5 h6 h7).extractStridedSlice _ _
theorem real_v12 : AllReal (s := S128x128) (val_main_v12 (F := Ideal) x3 x4 x6) := (real_v4 h3 h4 h5 h6 h7).extractStridedSlice _ _
theorem real_v13 : AllReal (s := S128x128) (val_main_v13 (F := Ideal) x3 x5 x7) := (real_v9 h3 h4 h5 h6 h7).extractStridedSlice _ _
theorem real_v14 : AllReal (s := S128x128) (val_main_v14 (F := Ideal) x3 x5 x7) := (real_v9 h3 h4 h5 h6 h7).extractStridedSlice _ _
theorem real_v15 : AllReal (s := S128x128) (val_main_v15 (F := Ideal) x3 x5 x7) := (real_v9 h3 h4 h5 h6 h7).extractStridedSlice _ _
theorem real_v16 : AllReal (s := S128x128) (val_main_v16 (F := Ideal) x3 x4 x5 x6 x7) :=
  (real_v10 h3 h4 h5 h6 h7).addf (real_v13 h3 h4 h5 h6 h7)
theorem real_v17 : AllReal (s := S128x128) (val_main_v17 (F := Ideal) x3 x4 x5 x6 x7) := (real_v16 h3 h4 h5 h6 h7).hostNegf
theorem pos_v18 : AllPos (s := S128x128) (val_main_v18 (F := Ideal) x3 x4 x5 x6 x7) := AllPos.hostExp (real_v17 h3 h4 h5 h6 h7)
theorem pos_v20 : AllPos (s := S128x128) (val_main_v20 (F := Ideal) x3 x4 x5 x6 x7) := pos_v19.addf (pos_v18 h3 h4 h5 h6 h7)
theorem real_v22 : AllReal (s := S128x128) (val_main_v22 (F := Ideal) x3 x4 x5 x6 x7) := real_v21.hostDivf (pos_v20 h3 h4 h5 h6 h7)
theorem real_v23 : AllReal (s := S128x128) (val_main_v23 (F := Ideal) x3 x4 x5 x6 x7) :=
  (real_v11 h3 h4 h5 h6 h7).addf (real_v14 h3 h4 h5 h6 h7)
theorem real_v24 : AllReal (s := S128x128) (val_main_v24 (F := Ideal) x3 x4 x5 x6 x7) := (real_v23 h3 h4 h5 h6 h7).hostNegf
theorem pos_v25 : AllPos (s := S128x128) (val_main_v25 (F := Ideal) x3 x4 x5 x6 x7) := AllPos.hostExp (real_v24 h3 h4 h5 h6 h7)
theorem pos_v27 : AllPos (s := S128x128) (val_main_v27 (F := Ideal) x3 x4 x5 x6 x7) := pos_v26.addf (pos_v25 h3 h4 h5 h6 h7)
theorem real_v29 : AllReal (s := S128x128) (val_main_v29 (F := Ideal) x3 x4 x5 x6 x7) := real_v28.hostDivf (pos_v27 h3 h4 h5 h6 h7)
theorem real_v30 : AllReal (s := S128x128) (val_main_v30 (F := Ideal) x3 x4 x5 x6 x7) :=
  (real_v22 h3 h4 h5 h6 h7).mulf (real_v15 h3 h4 h5 h6 h7)
theorem real_v31 : AllReal (s := S128x128) (val_main_v31 (F := Ideal) x3 x4 x5 x6 x7) :=
  (real_v12 h3 h4 h5 h6 h7).addf (real_v30 h3 h4 h5 h6 h7)
theorem real_v32 : AllReal (s := S128x128) (val_main_v32 (F := Ideal) x3 x4 x5 x6 x7) := (real_v31 h3 h4 h5 h6 h7).hostTanh
theorem real_v34 : AllReal (s := S128x128) (val_main_v34 (F := Ideal) x3 x4 x5 x6 x7) := real_v33.subf (real_v29 h3 h4 h5 h6 h7)
theorem real_v35 : AllReal (s := S128x128) (val_main_v35 (F := Ideal) x3 x4 x5 x6 x7) :=
  (real_v34 h3 h4 h5 h6 h7).mulf (real_v32 h3 h4 h5 h6 h7)
theorem real_v36 : AllReal (s := S128x128) (val_main_v36 (F := Ideal) x3 x4 x5 x6 x7) := (real_v29 h3 h4 h5 h6 h7).mulf h3
/-- THE EVOLVED WEIGHT is a real array. -/
theorem real_v37 : AllReal (s := S128x128) (val_main_v37 (F := Ideal) x3 x4 x5 x6 x7) :=
  (real_v35 h3 h4 h5 h6 h7).addf (real_v36 h3 h4 h5 h6 h7)

end Weight

/-! ## The edge normalisation -/

section Norm
variable (h2 : AllReal (s := S600000) x2)
include h2

theorem real_v46 : AllReal (s := S700000) (val_main_v46 (F := Ideal) x2) :=
  AllReal.concatenate _ _ _ fun p hp => by
    rcases List.mem_cons.mp hp with rfl | hp
    · exact h2
    · rcases List.mem_cons.mp hp with rfl | hp
      · exact real_v45
      · exact absurd hp List.not_mem_nil
/-- Every node's degree is a real number. -/
theorem real_v49 : AllReal (s := S100000) (val_main_v49 (F := Ideal) x1 x2) :=
  AllReal.hostScatterAdd _ _ real_v47 (real_v46 h2)
theorem pos_v53 : AllPos (s := S100000) (val_main_v53 (F := Ideal) x1 x2) := AllPos.maximumf_right (real_v49 h2) pos_v52
theorem real_v54 : AllReal (s := S100000) (val_main_v54 (F := Ideal) x1 x2) := AllReal.hostRsqrt (pos_v53 h2)
theorem real_v55 : AllReal (s := S100000) (val_main_v55 (F := Ideal) x1 x2) := (real_v54 h2).select real_call0_v1
theorem real_v62 : AllReal (s := S700000) (val_main_v62 (F := Ideal) x1 x2) := (real_v55 h2).hostGather _ _
theorem real_v63 : AllReal (s := S700000) (val_main_v63 (F := Ideal) x1 x2) := (real_v62 h2).mulf (real_v46 h2)
theorem real_v70 : AllReal (s := S700000) (val_main_v70 (F := Ideal) x1 x2) := (real_v55 h2).hostGather _ _
/-- THE EDGE NORMALISATION is a real array. -/
theorem real_v71 : AllReal (s := S700000) (val_main_v71 (F := Ideal) x1 x2) := (real_v63 h2).mulf (real_v70 h2)

end Norm

end Cert.ReferenceIdeal.Finite

end
-- ==== Proof.LibWeightedRows.lean ====
/-
  A weighted sum of rows commutes with a product by a column, on real arrays.

  For rows `X e` (over a finite set `S` of row names), weights `n e` and a column `w`,

      ∑ c, (∑ e ∈ S, n e · X e c) · w c  =  ∑ e ∈ S, n e · (∑ c, X e c · w c).

  Over the real numbers this is distributivity and an exchange of the two sums. On the extended reals
  both steps fail at the infinities, so the law is stated for weights, rows and column that are real
  numbers: the proof moves to ℝ, where it is `Finset.sum_comm`, and comes back.
-/
import proofs.«151306_j80504866996300_2_alg».proof.Proof.LibRealArrays

noncomputable section

namespace RealArrays

/-- Aggregating weighted rows and then multiplying by a column is multiplying each row by the column and
    then aggregating, when every weight, entry and column entry is a real number. -/
theorem sum_weighted_rows_mul {E C : Type*} [Fintype C] (S : Finset E) (n : E → EReal) (X : E → C → EReal)
    (w : C → EReal) (hn : ∀ e, IsReal (n e)) (hX : ∀ e c, IsReal (X e c)) (hw : ∀ c, IsReal (w c)) :
    ∑ c, (∑ e ∈ S, n e * X e c) * w c = ∑ e ∈ S, n e * ∑ c, X e c * w c := by
  choose n' hn' using hn
  choose X' hX' using hX
  choose w' hw' using hw
  have hl : ∀ c, (∑ e ∈ S, n e * X e c) * w c = ((∑ e ∈ S, n' e * X' e c * w' c : ℝ) : EReal) := fun c => by
    have h1 : ∑ e ∈ S, n e * X e c = ((∑ e ∈ S, n' e * X' e c : ℝ) : EReal) := by
      rw [coe_sum]; exact Finset.sum_congr rfl fun e _ => by rw [hn' e, hX' e c, EReal.coe_mul]
    rw [h1, hw' c, ← EReal.coe_mul, Finset.sum_mul]
  have hr : ∀ e, n e * ∑ c, X e c * w c = ((∑ c, n' e * X' e c * w' c : ℝ) : EReal) := fun e => by
    have h2 : ∑ c, X e c * w c = ((∑ c, X' e c * w' c : ℝ) : EReal) := by
      rw [coe_sum]; exact Finset.sum_congr rfl fun c _ => by rw [hX' e c, hw' c, EReal.coe_mul]
    rw [h2, hn' e, ← EReal.coe_mul, Finset.mul_sum]
    exact congrArg _ (Finset.sum_congr rfl fun c _ => (mul_assoc _ _ _).symm)
  rw [Finset.sum_congr rfl fun c _ => hl c, Finset.sum_congr rfl fun e _ => hr e, ← coe_sum, ← coe_sum,
    Finset.sum_comm]

end RealArrays

end
-- ==== Proof.Bridge.lean ====
/-
  The two programs compute one function: aggregating first and weighting after, or weighting first and
  aggregating after.

  The kernel accumulates, for each node `v`, the normalised RAW rows of its in-neighbours, and multiplies the
  result by the weight afterwards: hidden unit `k` of node `v` is `∑ c, (∑ e onto v, n e · x (ρ e, c)) · W (c, k)`.
  The reference multiplies every row by the weight first and accumulates the products:
  `∑ e onto v, n e · (∑ c, x (ρ e, c) · W (c, k))`. For real normalisations, features and weight these are equal
  (a weighted sum of rows commutes with a product by a column); the rectifier, the classifier's row and the bias
  then act on equal numbers in the same way.
-/
import proofs.«151306_j80504866996300_2_alg».proof.Proof.RefRead
import proofs.«151306_j80504866996300_2_alg».proof.Proof.Finite
import proofs.«151306_j80504866996300_2_alg».proof.Proof.LibWeightedRows
import proofs.«151306_j80504866996300_2_alg».proof.Proof.Spec

noncomputable section

namespace Cert.ReferenceIdeal.Bridge

open Cert.ReferenceIdeal Cert.ReferenceIdeal.Gen Cert.ReferenceIdeal.Read Idealize.ShloMosaic Idealize.ShloMosaic.ValueIdx
  RowOps RealArrays

variable (x0 : (⟨S100000x128, .f32⟩ : BufTy).Contents (Elt Ideal)) (x1 : (⟨S2x600000, .i32⟩ : BufTy).Contents (Elt Ideal))
  (x2 : (⟨S600000, .f32⟩ : BufTy).Contents (Elt Ideal)) (x3 : (⟨S128x128, .f32⟩ : BufTy).Contents (Elt Ideal))
  (x4 x5 : (⟨S384x128, .f32⟩ : BufTy).Contents (Elt Ideal)) (x6 x7 : (⟨S384, .f32⟩ : BufTy).Contents (Elt Ideal))
  (x8 : (⟨S1x128, .f32⟩ : BufTy).Contents (Elt Ideal)) (x9 : (⟨S1, .f32⟩ : BufTy).Contents (Elt Ideal))

/-- The kernel's aggregated array: the raw features' source rows, each scaled by its edge's normalisation,
    accumulated by target. -/
def aggRaw : FVec Ideal S100000x128 .f32 :=
  Host.scatterAdd (F := Ideal) (φ := .f32) scatter_S100000x128_S700000x1_S700000x128_1_0_0_1 (val_main_v83 (F := Ideal))
    (val_main_v84 (F := Ideal) x1)
    (mulf (F := Ideal) (φ := .f32) (val_main_v81 (F := Ideal) x1 x2)
      (Host.gather gather_S100000x128_S700000x1_S700000x128_1_0_n_n_0_1_1128 x0 (val_main_v79 (F := Ideal) x1)))

/-- Its entry `(v, c)`: over the edges onto `v`, the normalisation times entry `c` of the source row. -/
theorem aggRaw_apply (v : Fin 100000) (c : Fin 128) :
    aggRaw x0 x1 x2 (ix2 v c)
      = Ideal.ofBits .f32 0x00000000#32 + ∑ e ∈ rowsOnto (val_main_v84 (F := Ideal) x1) v,
          val_main_v71 (F := Ideal) x1 x2 (ix1 e)
            * x0 (ix2 (gatheredRow (N := 100000) (by decide) (val_main_v79 (F := Ideal) x1) e) c) := by
  unfold aggRaw
  show Host.scatterAdd (rowScatterDims 100000 700000 128 _) _ _ _ (ix2 v c) = _
  rw [scatterAdd_rows_apply, val_main_v83_apply, val_main_cst_14_apply]
  refine congrArg (Ideal.ofBits .f32 0x00000000#32 + ·) (Finset.sum_congr rfl fun e _ => ?_)
  show val_main_v81 (F := Ideal) x1 x2 (ix2 e c) * Host.gather (rowGatherDims 100000 700000 128 _) x0 _ (ix2 e c) = _
  rw [val_main_v81_apply, val_main_v73_apply, gather_rows_apply (by decide)]
  have e1 : idx_main_v73 (idx_main_v81 (ix2 e c)) = ix1 e :=
    funext fun a => Fin.ext (by match a with | ⟨0, _⟩ => rfl)
  rw [e1]

/-- THE TWO ORDERS AGREE at hidden unit `k` of node `v`, for real features, edge weights and recurrent
    parameters. -/
theorem hidden_eq (h0 : AllReal (s := S100000x128) x0) (h2 : AllReal (s := S600000) x2)
    (h3 : AllReal (s := S128x128) x3) (h4 : AllReal (s := S384x128) x4) (h5 : AllReal (s := S384x128) x5)
    (h6 : AllReal (s := S384) x6) (h7 : AllReal (s := S384) x7) (v : Fin 100000) (k : Fin 128) :
    val_main_v85 (F := Ideal) x0 x1 x2 x3 x4 x5 x6 x7 (ix2 v k)
      = ∑ c : Fin 128, aggRaw x0 x1 x2 (ix2 v c) * val_main_v37 (F := Ideal) x3 x4 x5 x6 x7 (ix2 c k) := by
  have key := sum_weighted_rows_mul (rowsOnto (val_main_v84 (F := Ideal) x1) v)
    (fun e => val_main_v71 (F := Ideal) x1 x2 (ix1 e))
    (fun e c => x0 (ix2 (gatheredRow (N := 100000) (by decide) (val_main_v79 (F := Ideal) x1) e) c))
    (fun c => val_main_v37 (F := Ideal) x3 x4 x5 x6 x7 (ix2 c k))
    (fun e => Finite.real_v71 h2 _) (fun e c => h0 _) (fun c => Finite.real_v37 h3 h4 h5 h6 h7 _)
  beta_reduce at key
  rw [RefValue.agg_apply, Ideal.ofBits_zero_f32, zero_add, ← key]
  refine Finset.sum_congr rfl fun c _ => ?_
  rw [aggRaw_apply, Ideal.ofBits_zero_f32, zero_add]

/-- THE REFERENCE'S OUTPUT AT NODE `v` is the node's score over the kernel's aggregated array. -/
theorem result_eq (h0 : AllReal (s := S100000x128) x0) (h2 : AllReal (s := S600000) x2)
    (h3 : AllReal (s := S128x128) x3) (h4 : AllReal (s := S384x128) x4) (h5 : AllReal (s := S384x128) x5)
    (h6 : AllReal (s := S384) x6) (h7 : AllReal (s := S384) x7) (v : Fin 100000) :
    val_main_v91 (F := Ideal) x0 x1 x2 x3 x4 x5 x6 x7 x8 x9 (ix2 v (0 : Fin 1))
      = NodeScore.rowScore (aggRaw x0 x1 x2) (val_main_v37 (F := Ideal) x3 x4 x5 x6 x7) x8 (x9 (ix1 (0 : Fin 1))) v := by
  rw [RefValue.out_apply]
  unfold NodeScore.rowScore
  refine congrArg (· + x9 (ix1 (0 : Fin 1))) (Finset.sum_congr rfl fun k _ => ?_)
  rw [hidden_eq x0 x1 x2 x3 x4 x5 x6 x7 h0 h2 h3 h4 h5 h6 h7 v k]

end Cert.ReferenceIdeal.Bridge

end
-- ==== Proof.KernelHost.lean ====
/-
  What the kernel's region finds in its input arrays.

  Before the region the kernel's host program computes, operation for operation, what the reference computes up to
  the edge normalisation: the evolved weight, the normalisation, and the two columns of node numbers (sources made
  non-negative for the gather, targets as given for the scatter). It then gathers the SOURCE ROWS OF THE RAW FEATURES,
  scales each by its edge's normalisation and accumulates them by target: that array is the region's first input.
  The second is the evolved weight, the third the classifier's row as given, the fourth the bias reshaped to `[1, 1]`.
  Each is stated here as the same named stage of the reference's program applied to the kernel's own arguments.
-/
import proofs.«151306_j80504866996300_2_alg».proof.Proof.Gen.KernelIdeal.Frame
import proofs.«151306_j80504866996300_2_alg».proof.Proof.Gen.ReferenceIdeal.Read
import proofs.«151306_j80504866996300_2_alg».proof.Proof.Bridge
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (c : Dev nD)

/-! ## The kernel's arguments, as plain arrays -/

abbrev arg0 : S100000x128.Idx → EReal := m ((c : Thread nD τ).loc main_arg0)
abbrev arg1 : IVec S2x600000 32 := m ((c : Thread nD τ).loc main_arg1)
abbrev arg2 : S600000.Idx → EReal := m ((c : Thread nD τ).loc main_arg2)
abbrev arg3 : S128x128.Idx → EReal := m ((c : Thread nD τ).loc main_arg3)
abbrev arg4 : S384x128.Idx → EReal := m ((c : Thread nD τ).loc main_arg4)
abbrev arg5 : S384x128.Idx → EReal := m ((c : Thread nD τ).loc main_arg5)
abbrev arg6 : S384.Idx → EReal := m ((c : Thread nD τ).loc main_arg6)
abbrev arg7 : S384.Idx → EReal := m ((c : Thread nD τ).loc main_arg7)
abbrev arg8 : S1x128.Idx → EReal := m ((c : Thread nD τ).loc main_arg8)
abbrev arg9 : S1.Idx → EReal := m ((c : Thread nD τ).loc main_arg9)

/-! ## The region's inputs -/

set_option maxRecDepth 65536 in
set_option maxHeartbeats 8000000 in
/-- The region's second input is the evolved weight. -/
theorem V_weight : (V m c main_v37 : S128x128.Idx → EReal)
    = Cert.ReferenceIdeal.Read.val_main_v37 (F := Ideal) (arg3 m c) (arg4 m c) (arg5 m c) (arg6 m c) (arg7 m c) := by
  dsimp only [V]
  simp only [hostOps0, hostOps0_1, hostOps0_2, List.flatten_cons, List.flatten_nil, List.append_nil, List.cons_append,
    List.nil_append]
  after_results_simp
  rfl

/-! ### The host program in three stretches

The outlined selection (`where`) that makes the inverse square-root degree sits between two long stretches of host
operations. Each stretch is read against the contents the one before it leaves, which stay a name: a stretch's
results are then short terms over that name. -/

/-- The contents after a list of operations followed by another are the second list's over the first's. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op ops ih => rw [List.cons_append, after_cons, after_cons, ih]

/-- Device `c`'s buffers before the outlined selection. -/
def before : Valuation τ sig (Elt Ideal) := StableHlo.after hostOps0 (fun b => m (c, b))

/-- Device `c`'s buffers after the outlined selection. -/
def atCall : Valuation τ sig (Elt Ideal) := StableHlo.after hostOps0_1 (before m c)

/-- What the region finds is what the last stretch leaves of those. -/
theorem V_split (b : Ref sig .tc) : V m c b = StableHlo.after hostOps0_2 (atCall m c) (Proc.devRef .tc b) := by
  show StableHlo.after (List.flatten [hostOps0, hostOps0_1, hostOps0_2]) (fun b => m (c, b)) (Proc.devRef .tc b) = _
  rw [List.flatten_cons, List.flatten_cons, List.flatten_cons, List.flatten_nil, List.append_nil, after_append,
    after_append]
  rfl

set_option maxRecDepth 65536 in
set_option maxHeartbeats 8000000 in
/-- Before the selection: the mask of positive degrees. -/
theorem before_v51 : (before m c (Proc.devRef .tc main_v51) : IVec S100000 1) = Cert.ReferenceIdeal.Read.val_main_v51 (F := Ideal) (arg1 m c) (arg2 m c) := by
  unfold before
  simp only [hostOps0]
  after_results_simp
  rfl

set_option maxRecDepth 65536 in
set_option maxHeartbeats 8000000 in
/-- Before the selection: the reciprocal square root of the floored degree. -/
theorem before_v54 : (before m c (Proc.devRef .tc main_v54) : S100000.Idx → EReal) = Cert.ReferenceIdeal.Read.val_main_v54 (F := Ideal) (arg1 m c) (arg2 m c) := by
  unfold before
  simp only [hostOps0]
  after_results_simp
  rfl

set_option maxRecDepth 65536 in
set_option maxHeartbeats 8000000 in
/-- Before the selection: the zero it falls back to. -/
theorem before_cst_8 : (before m c (Proc.devRef .tc main_cst_8) : S_.Idx → EReal) = Cert.ReferenceIdeal.Read.val_main_cst_8 (F := Ideal) := by
  unfold before
  simp only [hostOps0]
  after_results_simp
  rfl

set_option maxRecDepth 65536 in
set_option maxHeartbeats 8000000 in
/-- The edges' sources, self loops appended. -/
theorem before_v41 : (before m c (Proc.devRef .tc main_v41) : IVec S700000 32) = Cert.ReferenceIdeal.Read.val_main_v41 (F := Ideal) (arg1 m c) := by
  unfold before
  simp only [hostOps0]
  after_results_simp
  rfl

set_option maxRecDepth 65536 in
set_option maxHeartbeats 8000000 in
/-- The edges' targets, self loops appended. -/
theorem before_v44 : (before m c (Proc.devRef .tc main_v44) : IVec S700000 32) = Cert.ReferenceIdeal.Read.val_main_v44 (F := Ideal) (arg1 m c) := by
  unfold before
  simp only [hostOps0]
  after_results_simp
  rfl

set_option maxRecDepth 65536 in
set_option maxHeartbeats 8000000 in
/-- The edges' weights, the self loops' ones appended. -/
theorem before_v46 : (before m c (Proc.devRef .tc main_v46) : S700000.Idx → EReal) = Cert.ReferenceIdeal.Read.val_main_v46 (F := Ideal) (arg2 m c) := by
  unfold before
  simp only [hostOps0]
  after_results_simp
  rfl

set_option maxRecDepth 65536 in
set_option maxHeartbeats 8000000 in
/-- The features, as given. -/
theorem before_arg0 : (before m c (Proc.devRef .tc main_arg0) : S100000x128.Idx → EReal) = arg0 m c := by
  unfold before
  simp only [hostOps0]
  after_results_simp

/-- Contents written to a typed reference's buffer and read back at its type are the contents: both steps
    transport along the one equation between the buffer's type and the value's. -/
theorem ofBuf_toBuf {Val : EltTy → Type} {T : BufTy} (x : TRef sig T) (v : T.Contents Val) : x.ofBuf (x.toBuf v) = v := by
  obtain ⟨r, h, _, _⟩ := x
  subst h
  rfl

/-- Reading, at a typed reference's type, contents that are a value of that type gives the value. -/
theorem ofBuf_eq_self {Val : EltTy → Type} {T : BufTy} (x : TRef sig T) (v : T.Contents Val)
    (v' : x.ref.ty.Contents Val) (hv : HEq v' v) : x.ofBuf v' = v :=
  eq_of_heq ((cast_heq _ v').trans hv)

/-- Writing a value to a typed reference's buffer gives contents that are the value. -/
theorem toBuf_eq_self {Val : EltTy → Type} {T : BufTy} (x : TRef sig T) (v : T.Contents Val)
    (w : x.ref.ty.Contents Val) (hw : HEq v w) : x.toBuf v = w :=
  eq_of_heq ((cast_heq _ v).trans hw)

set_option maxRecDepth 65536 in
set_option maxHeartbeats 8000000 in
/-- THE SELECTION: the inverse square-root degree where the degree is positive, zero elsewhere. -/
theorem atCall_v55 : (atCall m c (Proc.devRef .tc main_v55) : S100000.Idx → EReal)
    = Cert.ReferenceIdeal.Read.val_main_v55 (F := Ideal) (arg1 m c) (arg2 m c) := by
  unfold atCall
  simp only [hostOps0_1]
  after_results_simp
  rw [before_v51, before_v54, before_cst_8]
  simp only [ofBuf_toBuf]
  have e51 : ∀ A : IVec S100000 1, (TRef.of main_v51 : TRef sig ⟨S100000, .i1⟩).ofBuf (Val := Elt Ideal) A = A :=
    fun A => ofBuf_eq_self (Val := Elt Ideal) (TRef.of main_v51 : TRef sig ⟨S100000, .i1⟩) A A HEq.rfl
  have e54 : ∀ B : S100000.Idx → EReal, (TRef.of main_v54 : TRef sig ⟨S100000, .f32⟩).ofBuf (Val := Elt Ideal) B = B :=
    fun B => ofBuf_eq_self (Val := Elt Ideal) (TRef.of main_v54 : TRef sig ⟨S100000, .f32⟩) B B HEq.rfl
  have ec8 : ∀ Z : S_.Idx → EReal, (TRef.of main_cst_8 : TRef sig ⟨S_, .f32⟩).ofBuf (Val := Elt Ideal) Z = Z :=
    fun Z => ofBuf_eq_self (Val := Elt Ideal) (TRef.of main_cst_8 : TRef sig ⟨S_, .f32⟩) Z Z HEq.rfl
  have e55 : ∀ S : S100000.Idx → EReal, (TRef.of main_v55 : TRef sig ⟨S100000, .f32⟩).toBuf (Val := Elt Ideal) S = S :=
    fun S => toBuf_eq_self (Val := Elt Ideal) (TRef.of main_v55 : TRef sig ⟨S100000, .f32⟩) S S HEq.rfl
  rw [e55, e51, e54, ec8]
  rfl

set_option maxRecDepth 65536 in
set_option maxHeartbeats 8000000 in
theorem atCall_v41 : (atCall m c (Proc.devRef .tc main_v41) : IVec S700000 32) = before m c (Proc.devRef .tc main_v41) := by
  unfold atCall
  simp only [hostOps0_1]
  after_results_simp

set_option maxRecDepth 65536 in
set_option maxHeartbeats 8000000 in
theorem atCall_v44 : (atCall m c (Proc.devRef .tc main_v44) : IVec S700000 32) = before m c (Proc.devRef .tc main_v44) := by
  unfold atCall
  simp only [hostOps0_1]
  after_results_simp

set_option maxRecDepth 65536 in
set_option maxHeartbeats 8000000 in
theorem atCall_v46 : (atCall m c (Proc.devRef .tc main_v46) : S700000.Idx → EReal) = before m c (Proc.devRef .tc main_v46) := by
  unfold atCall
  simp only [hostOps0_1]
  after_results_simp

set_option maxRecDepth 65536 in
set_option maxHeartbeats 8000000 in
theorem atCall_arg0 : (atCall m c (Proc.devRef .tc main_arg0) : S100000x128.Idx → EReal) = before m c (Proc.devRef .tc main_arg0) := by
  unfold atCall
  simp only [hostOps0_1]
  after_results_simp

set_option maxRecDepth 65536 in
set_option maxHeartbeats 8000000 in
/-- The region's first input: the raw features' source rows, scaled by the edge normalisation, accumulated by target. -/
theorem V_aggregate : (V m c main_v84 : S100000x128.Idx → EReal)
    = Cert.ReferenceIdeal.Bridge.aggRaw (arg0 m c) (arg1 m c) (arg2 m c) := by
  rw [V_split]
  simp only [hostOps0_2]
  after_results_simp
  rw [atCall_v55, atCall_v41, atCall_v44, atCall_v46, atCall_arg0, before_v41, before_v44, before_v46, before_arg0]
  rfl

set_option maxRecDepth 65536 in
set_option maxHeartbeats 8000000 in
/-- The region's fourth input is the bias, its one entry at `(0, 0)`. -/
theorem V_bias : (V m c main_v85 : S1x1.Idx → EReal) = shapeCast S1x1 (arg9 m c) shapeCasts_S1_S1x1 := by
  dsimp only [V]
  simp only [hostOps0, hostOps0_1, hostOps0_2, List.flatten_cons, List.flatten_nil, List.append_nil, List.cons_append,
    List.nil_append]
  after_results_simp
  rfl

end Cert.KernelIdeal.HostPrefix

end
-- ==== Proof.Joined.lean ====
/-
  The kernel's scores are the reference's output of the same arguments.

  The region is given the aggregated raw features, the evolved weight, the classifier's row and the bias; each is the
  same named function of the kernel's arguments that the reference applies to its own. So node `v`'s score over what
  the region is given is the reference's output at `v` for those arguments: the one place where the two programs
  differ — which of aggregation and weighting comes first — is the law of real arrays proved for the reference's side.
-/
import proofs.«151306_j80504866996300_2_alg».proof.Proof.KernelValue
import proofs.«151306_j80504866996300_2_alg».proof.Proof.KernelHost
import proofs.«151306_j80504866996300_2_alg».proof.Proof.Bridge
import Idealize.ShloMosaic.Lib.ValueLayout

noncomputable section

namespace Cert.KernelIdeal.Joined

open Cert.KernelIdeal Cert.KernelIdeal.Gen Cert.KernelIdeal.HostPrefix Idealize.ShloMosaic Idealize.ShloMosaic.TcCoe
  Idealize.SL.Sem Idealize.ShloMosaic.ValueIdx RealArrays

variable (m : (ℓ : Loc nD τ sig) → Buf (Elt Ideal) ℓ) (c : Dev nD)

/-- The bias as the region finds it, at its one entry. -/
theorem bias_apply : (V m c main_v85 : S1x1.Idx → EReal) (ix2 (0 : Fin 1) (0 : Fin 1)) = arg9 m c (ix1 (0 : Fin 1)) := by
  rw [V_bias]
  exact shapeCast_a_1a_apply (arg9 m c) shapeCasts_S1_S1x1 (0 : Fin 1) (0 : Fin 1)

/-- THE KERNEL'S OUTPUT ARRAY is the reference's result term at the kernel's arguments, when the features, the edge
    weights, the old weight and the recurrent parameters are real arrays. -/
theorem scores_eq (h0 : AllReal (s := S100000x128) (arg0 m c)) (h2 : AllReal (s := S600000) (arg2 m c))
    (h3 : AllReal (s := S128x128) (arg3 m c)) (h4 : AllReal (s := S384x128) (arg4 m c))
    (h5 : AllReal (s := S384x128) (arg5 m c)) (h6 : AllReal (s := S384) (arg6 m c)) (h7 : AllReal (s := S384) (arg7 m c)) :
    Whole.scores m c = Cert.ReferenceIdeal.Read.val_main_v91 (F := Ideal) (arg0 m c) (arg1 m c) (arg2 m c) (arg3 m c)
      (arg4 m c) (arg5 m c) (arg6 m c) (arg7 m c) (arg8 m c) (arg9 m c) := by
  funext i
  obtain ⟨v, q, rfl⟩ : ∃ (v : Fin 100000) (q : Fin 1), i = ix2 v q := ⟨i 0, i 1, eq_ix2 i⟩
  obtain rfl : q = 0 := Subsingleton.elim _ _
  rw [Cert.ReferenceIdeal.Bridge.result_eq (arg0 m c) (arg1 m c) (arg2 m c) (arg3 m c) (arg4 m c) (arg5 m c) (arg6 m c)
    (arg7 m c) (arg8 m c) (arg9 m c) h0 h2 h3 h4 h5 h6 h7 v]
  unfold Whole.scores
  rw [bias_apply, V_aggregate, V_weight, V_main_arg8]

end Cert.KernelIdeal.Joined

end
-- ==== Proof.lean ====
/-
  A one-layer evolving graph convolution with a linear classifier: the kernel against its reference, on the
  extended reals.

  Both programs evolve a 128 × 128 weight `W` by one recurrent step, normalise the 700000 edges (600000 given, one
  self loop per node) by the inverse square roots of their end nodes' degrees, and return, for each of the 100000
  nodes, `relu(h) · u + b` for the node's 128 hidden units `h`. They differ in one place. The reference weights every
  node's features first and aggregates the weighted rows over the edges: `h (v, k) = ∑ e onto v, n e · ∑ c, x (ρ e, c) ·
  W (c, k)`. The kernel aggregates the raw rows on the host and weights them inside its one tiled region:
  `h (v, k) = ∑ c, (∑ e onto v, n e · x (ρ e, c)) · W (c, k)`. On the extended reals these agree when the
  normalisations `n`, the features `x` and the weight `W` are real numbers (distributivity and an exchange of sums,
  which fail at the infinities), and under the precondition they are: the gates are `1 / (1 + e^(−t))` of real `t`, the
  candidate a hyperbolic tangent, a degree a finite sum of real edge weights, and its reciprocal square root is taken
  of a degree floored at the positive `1e-30`. Everything after the hidden units is the same function on both sides.

  The three programs' runs and the kernel's value block by block are the generated modules'; written here are the
  kernel's whole output array, what its region is given in terms of the arguments, the reference's result read at a
  row, the reality of `W` and `n`, and the law that joins the two orders.
-/
import proofs.«151306_j80504866996300_2_alg».proof.Defs
import proofs.«151306_j80504866996300_2_alg».proof.Proof.Gen.Kernel
import proofs.«151306_j80504866996300_2_alg».proof.Proof.Gen.Kernel.Skeleton
import proofs.«151306_j80504866996300_2_alg».proof.Proof.Gen.Kernel.Launch
import proofs.«151306_j80504866996300_2_alg».proof.Proof.Gen.Kernel.Points
import proofs.«151306_j80504866996300_2_alg».proof.Proof.Gen.Kernel.Frame
import proofs.«151306_j80504866996300_2_alg».proof.Proof.Gen.KernelIdeal
import proofs.«151306_j80504866996300_2_alg».proof.Proof.Gen.KernelIdeal.Skeleton
import proofs.«151306_j80504866996300_2_alg».proof.Proof.Gen.KernelIdeal.Launch
import proofs.«151306_j80504866996300_2_alg».proof.Proof.Gen.KernelIdeal.Points
import proofs.«151306_j80504866996300_2_alg».proof.Proof.Gen.KernelIdeal.Frame
import proofs.«151306_j80504866996300_2_alg».proof.Proof.Gen.ReferenceIdeal
import proofs.«151306_j80504866996300_2_alg».proof.Proof.Gen.Pre_finite_inputs
import proofs.«151306_j80504866996300_2_alg».proof.Proof.Gen.KernelIdeal.Value
import proofs.«151306_j80504866996300_2_alg».proof.Proof.Gen.ReferenceIdeal.Run
import proofs.«151306_j80504866996300_2_alg».proof.Proof.Gen.ReferenceIdeal.Read
import proofs.«151306_j80504866996300_2_alg».proof.Proof.PreFinite
import proofs.«151306_j80504866996300_2_alg».proof.Proof.Joined
import Idealize.ShloMosaic.Adequacy
import Idealize.ShloMosaic.Init

noncomputable section

namespace Cert.Proof

open Idealize.ShloMosaic Idealize.SL.Sem

/-- The kernel as printed runs and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read at the ideal instance. -/
theorem preserves : Cert.preserves_Kernel_KernelIdeal := trivial

/-- From memories agreeing on the arguments both programs end with the same array of node scores: the kernel's is
    every node's score over what its region is given, which is the reference's result term at the same arguments
    once the features, the edge weights, the old weight and the recurrent parameters are known to be real. -/
theorem algebraic : Cert.algebraic_KernelIdeal_ReferenceIdeal := by
  intro m ρ m' ρ' hpre hagree
  refine ⟨fun c => Cert.KernelIdeal.Whole.scores m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  obtain ⟨h0, h2, h3, h4, h5, h6, h7⟩ :=
    Cert.Pre_finite_inputs.Decode.allReal_of_pre _ _ _ _ _ _ _ _ _ _ (hpre c)
  rw [Cert.ReferenceIdeal.Read.val_main_v91_eq, a0, a1, a2, a3, a4, a5, a6, a7, a8, a9]
  exact (Cert.KernelIdeal.Joined.scores_eq m c h0 h2 h3 h4 h5 h6 h7).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
